-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg3 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 0#32
  let main_v53 : IVec S800000 32 := broadcastInDim S800000 ![] bcast_S_S800000 main_c_20
  let main_v54 : IVec S800000 1 := cmpi .sge main_arg3 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg2 : IVec S800000 32) (main_arg3 : IVec S800000 32) (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg2 main_v49
  fn_part3 (F := F) main_arg3 main_v48 main_v50

def fn_part1 {F : FTy → Type} [FloatOps F] (main_arg2 : IVec S800000 32) (main_arg3 : IVec S800000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x8 : Shape := ⟨2, ![128, 8]⟩
abbrev S8x128 : Shape := ⟨2, ![8, 128]⟩
abbrev S128x384 : Shape := ⟨2, ![128, 384]⟩
abbrev S384 : Shape := ⟨1, ![384]⟩
abbrev S50000x384 : Shape := ⟨2, ![50000, 384]⟩
abbrev S1x384 : Shape := ⟨2, ![1, 384]⟩
abbrev S800000x1 : Shape := ⟨2, ![800000, 1]⟩
abbrev S800000x8 : Shape := ⟨2, ![800000, 8]⟩
abbrev S6400x128 : Shape := ⟨2, ![6400, 128]⟩
abbrev S6400x8 : Shape := ⟨2, ![6400, 8]⟩
abbrev S1x128 : Shape := ⟨2, ![1, 128]⟩
abbrev S800000x8x16 : Shape := ⟨3, ![800000, 8, 16]⟩
abbrev S_ : Shape := ⟨0, ![]⟩
abbrev S50000x8x16 : Shape := ⟨3, ![50000, 8, 16]⟩
abbrev S50000x8 : Shape := ⟨2, ![50000, 8]⟩
abbrev S50000x8x1 : Shape := ⟨3, ![50000, 8, 1]⟩

abbrev nBuf : Space → Nat
  | .hbm => 53
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x8, .f32⟩
  | .hbm, ⟨13, _⟩ => ⟨S8x128, .f32⟩
  | .hbm, ⟨14, _⟩ => ⟨S128x384, .f32⟩
  | .hbm, ⟨15, _⟩ => ⟨S384, .f32⟩
  | .hbm, ⟨16, _⟩ => ⟨S50000x384, .f32⟩
  | .hbm, ⟨17, _⟩ => ⟨S1x384, .f32⟩
  | .hbm, ⟨18, _⟩ => ⟨S50000x384, .f32⟩
  | .hbm, ⟨19, _⟩ => ⟨S50000x384, .f32⟩
  | .hbm, ⟨20, _⟩ => ⟨S50000x128, .f32⟩
  | .hbm, ⟨21, _⟩ => ⟨S50000x128, .bf16⟩
  | .hbm, ⟨22, _⟩ => ⟨S50000x128, .f32⟩
  | .hbm, ⟨23, _⟩ => ⟨S50000x128, .bf16⟩
  | .hbm, ⟨24, _⟩ => ⟨S50000x128, .f32⟩
  | .hbm, ⟨25, _⟩ => ⟨S50000x128, .bf16⟩
  | .hbm, ⟨26, _⟩ => ⟨S800000x1, .i32⟩
  | .hbm, ⟨27, _⟩ => ⟨S800000x128, .bf16⟩
  | .hbm, ⟨28, _⟩ => ⟨S800000x1, .i32⟩
  | .hbm, ⟨29, _⟩ => ⟨S800000x128, .bf16⟩
  | .hbm, ⟨30, _⟩ => ⟨S800000x1, .i32⟩
  | .hbm, ⟨31, _⟩ => ⟨S800000x128, .bf16⟩
  | .hbm, ⟨32, _⟩ => ⟨S128x128, .bf16⟩
  | .hbm, ⟨33, _⟩ => ⟨S800000x128, .bf16⟩
  | .hbm, ⟨34, _⟩ => ⟨S800000x128, .f32⟩
  | .hbm, ⟨35, _⟩ => ⟨S800000x128, .f32⟩
  | .hbm, ⟨36, _⟩ => ⟨S800000x8, .f32⟩
  | .hbm, ⟨37, _⟩ => ⟨S800000x8x16, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x8x16, .f32⟩
  | .hbm, ⟨43, _⟩ => ⟨S_, .f32⟩
  | .hbm, ⟨44, _⟩ => ⟨S50000x8, .f32⟩
  | .hbm, ⟨45, _⟩ => ⟨S800000x1, .i32⟩
  | .hbm, ⟨46, _⟩ => ⟨S50000x8, .f32⟩
  | .hbm, ⟨47, _⟩ => ⟨S50000x8x1, .f32⟩
  | .hbm, ⟨48, _⟩ => ⟨S_, .f32⟩
  | .hbm, ⟨49, _⟩ => ⟨S50000x8x1, .f32⟩
  | .hbm, ⟨50, _⟩ => ⟨S50000x8x1, .f32⟩
  | .hbm, ⟨51, _⟩ => ⟨S50000x8x16, .f32⟩
  | .hbm, ⟨52, _⟩ => ⟨S50000x8x16, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x128, .bf16⟩
  | .local _ .vmem, ⟨5, _⟩ => ⟨S6400x128, .bf16⟩
  | .local _ .vmem, ⟨6, _⟩ => ⟨S6400x128, .bf16⟩
  | .local _ .vmem, ⟨7, _⟩ => ⟨S6400x128, .bf16⟩
  | .local _ .vmem, ⟨8, _⟩ => ⟨S128x128, .bf16⟩
  | .local _ .vmem, ⟨9, _⟩ => ⟨S128, .f32⟩
  | .local _ .vmem, ⟨10, _⟩ => ⟨S128x8, .f32⟩
  | .local _ .vmem, ⟨11, _⟩ => ⟨S8x128, .f32⟩
  | .local _ .vmem, ⟨12, _⟩ => ⟨S6400x128, .f32⟩
  | .local _ .vmem, ⟨13, _⟩ => ⟨S6400x128, .f32⟩
  | .local _ .vmem, ⟨14, _⟩ => ⟨S6400x128, .f32⟩
  | .local _ .vmem, ⟨15, _⟩ => ⟨S6400x128, .f32⟩
  | .local _ .vmem, ⟨16, _⟩ => ⟨S6400x8, .f32⟩
  | .local _ .vmem, ⟨17, _⟩ => ⟨S6400x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_v0 : Ref sig .tc := ⟨.hbm, 26, rfl⟩
abbrev main_v12 : Ref sig .tc := ⟨.hbm, 27, rfl⟩
abbrev main_call1_v0 : Ref sig .tc := ⟨.hbm, 28, rfl⟩
abbrev main_v13 : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S6400x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  bitsLt_bf16_f32 : FTy.bits .bf16 < FTy.bits .f32
  slices_S50000x384_S50000x128_0_128 : S50000x384.Slices ![0, 128] S50000x128
  slices_S50000x384_S50000x128_0_256 : S50000x384.Slices ![0, 256] S50000x128
  bcast_S800000_S800000x1_0 : S800000.BroadcastsInDim S800000x1 (![0] : Fin 1 → Fin S800000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  shapeCasts_S128_S1x128 : S128.ShapeCasts S1x128
  broadcasts_S1x128_S6400x128 : S1x128.Broadcasts S6400x128
  inb_S6400x8_S6400x8_0_0 : ∀ a, (![0, 0] : Fin 2 → Nat) a + S6400x8.size a ≤ S6400x8.size a
  h_S6400x8 : 0 < S6400x8.numel
  shapeCasts_S800000x128_S800000x8x16 : S800000x128.ShapeCasts S800000x8x16
  bcast_S_S50000x128 : S_.BroadcastsInDim S50000x128 (![] : Fin 0 → Fin S50000x128.rank)
  shapeCasts_S50000x128_S50000x8x16 : S50000x128.ShapeCasts S50000x8x16
  bcast_S_S50000x8 : S_.BroadcastsInDim S50000x8 (![] : Fin 0 → Fin S50000x8.rank)
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x384_S50000x384_1_0_0_1_n_n_wf : DotDims.WF S50000x128 S128x384 S50000x384 [1] [0] [0] [1] [] []
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  dot_S6400x128_S128x8_S6400x8_1_0_0_1_n_n_wf : DotDims.WF S6400x128 S128x8 S6400x8 [1] [0] [0] [1] [] []
  dot_S6400x8_S8x128_S6400x128_1_0_0_1_n_n_wf : DotDims.WF S6400x8 S8x128 S6400x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S800000x128.size a
  hwx0_2 : ∀ i : grid0.Coords, EltTy.bits .bf16 = 32 ∨ (Rect.block (s := S800000x128) S6400x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S800000x128.size a
  hwx0_3 : ∀ i : grid0.Coords, EltTy.bits .bf16 = 32 ∨ (Rect.block (s := S800000x128) S6400x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x8.size a ≤ S128x8.size a
  hwx0_6 : ∀ i : grid0.Coords, EltTy.bits .f32 = 32 ∨ (Rect.block (s := S128x8) S128x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6400x128.size a ≤ S800000x128.size a
  hwx0_8 : ∀ i : grid0.Coords, EltTy.bits .f32 = 32 ∨ (Rect.block (s := S800000x128) S6400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x128.size a ≤ S800000x128.size a
  hwx0_9 : ∀ i : grid0.Coords, EltTy.bits .f32 = 32 ∨ (Rect.block (s := S800000x128) S6400x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6400x8.size a ≤ S800000x8.size a
  hwx0_10 : ∀ i : grid0.Coords, EltTy.bits .f32 = 32 ∨ (Rect.block (s := S800000x8) S6400x8.size (cc0_transform_10 i) (hinb0_10 i)).WholeWords (EltTy.packing .f32)

variable [Facts₀]

def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x8_S6400x8_1_0_0_1_n_n : DotDims S6400x128 S128x8 S6400x8 where
  lhsContracting := [1]
  rhsContracting := [0]
  lhsNonContracting := [0]
  rhsNonContracting := [1]
  lhsBatch := []
  rhsBatch := []
  wf := dot_S6400x128_S128x8_S6400x8_1_0_0_1_n_n_wf
def dot_S6400x8_S8x128_S6400x128_1_0_0_1_n_n : DotDims S6400x8 S8x128 S6400x128 where
  lhsContracting := [1]
  rhsContracting := [0]
  lhsNonContracting := [0]
  rhsNonContracting := [1]
  lhsBatch := []
  rhsBatch := []
  wf := dot_S6400x8_S8x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_v16) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S6400x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S128x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst_0) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17_0) S6400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17_1) S6400x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_2) S6400x8.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S800000x8x16, .f32⟩
  | .hbm, ⟨51, _⟩ => ⟨S_, .f32⟩
  | .hbm, ⟨52, _⟩ => ⟨S800000x8x16, .f32⟩
  | .hbm, ⟨53, _⟩ => ⟨S800000x8x16, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S800000x8x16, .f32⟩
  | .hbm, ⟨58, _⟩ => ⟨S800000x8x16, .f32⟩
  | .hbm, ⟨59, _⟩ => ⟨S_, .f32⟩
  | .hbm, ⟨60, _⟩ => ⟨S800000x8x16, .f32⟩
  | .hbm, ⟨61, _⟩ => ⟨S800000x8x16, .f32⟩
  | .hbm, ⟨62, _⟩ => ⟨S800000x8x16, .f32⟩
  | .hbm, ⟨63, _⟩ => ⟨S_, .f32⟩
  | .hbm, ⟨64, _⟩ => ⟨S800000x8, .f32⟩
  | .hbm, ⟨65, _⟩ => ⟨S800000x8x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S800000x8x1, .f32⟩
  | .hbm, ⟨70, _⟩ => ⟨S800000x8x1, .f32⟩
  | .hbm, ⟨71, _⟩ => ⟨S_, .f32⟩
  | .hbm, ⟨72, _⟩ => ⟨S800000x8x1, .f32⟩
  | .hbm, ⟨73, _⟩ => ⟨S800000x8x1, .f32⟩
  | .hbm, ⟨74, _⟩ => ⟨S800000x8x1, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x8x16, .f32⟩
  | .hbm, ⟨84, _⟩ => ⟨S800000x8x16, .f32⟩
  | .hbm, ⟨85, _⟩ => ⟨S800000x8x16, .f32⟩
  | .hbm, ⟨86, _⟩ => ⟨S_, .f32⟩
  | .hbm, ⟨87, _⟩ => ⟨S50000x8x16, .f32⟩
  | .hbm, ⟨88, _⟩ => ⟨S800000x1, .i32⟩
  | .hbm, ⟨89, _⟩ => ⟨S50000x8x16, .f32⟩
  | .hbm, ⟨90, _⟩ => ⟨S_, .f32⟩
  | .hbm, ⟨91, _⟩ => ⟨S50000x8x1, .f32⟩
  | .hbm, ⟨92, _⟩ => ⟨S800000x1, .i32⟩
  | .hbm, ⟨93, _⟩ => ⟨S50000x8x1, .f32⟩
  | .hbm, ⟨94, _⟩ => ⟨S_, .f32⟩
  | .hbm, ⟨95, _⟩ => ⟨S50000x8x1, .f32⟩
  | .hbm, ⟨96, _⟩ => ⟨S50000x8x1, .f32⟩
  | .hbm, ⟨97, _⟩ => ⟨S50000x8x16, .f32⟩
  | .hbm, ⟨98, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v41 : Ref sig .tc := ⟨.hbm, 73, rfl⟩
abbrev main_v42 : Ref sig .tc := ⟨.hbm, 74, rfl⟩
abbrev main_c_8 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_12 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.KEdgeHost.lean ====
/-
  The host side of the edge-attention program's frame, at any float instance.

  @main is: five stretches of host operations (the fused Q/K/V projection and its three column slices, three row
  gathers, two format changes), ONE region (the edge kernel on a grid of 125 tiles of 6400 edges), and sixteen host
  operations after it (two scatter-adds over the destination node, reshapes, the quotient). This module says what every
  buffer holds when the region is entered (`V`), that no host operation writes an argument array, what a window's block
  at a tile is (`blockAt`), and how the frame claim's post follows from a run that ends with every array of the region
  at what the tiles wrote and every other buffer at what the later host operations computed.
-/
import proofs.«155304_j53326313947334_2_alg».proof.Proof.Gen.Kernel.Launch
import proofs.«155304_j53326313947334_2_alg».proof.Proof.Gen.Kernel.Skeleton
import proofs.«155304_j53326313947334_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the five stretches of host operations that precede the region. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is no array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 0, which no window stages, ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does one after it: argument 1, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does one after it: argument 2, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does one after it: argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does one after it: argument 4, which no window stages, ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does one after it: argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does one after it: argument 6, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does one after it: argument 7, which no window stages, ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does one after it: argument 8, which no window stages, ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does one after it: argument 9, which no window stages, ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does one after it: argument 10, which no window stages, ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## A window's block at a tile -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not (a window that is not
    fetched again has not moved), for any proof data over the arrays `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every tile, fetched there or not (a window that is not
    fetched again has not moved), for any proof data over the arrays `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every tile, fetched there or not (a window that is not
    fetched again has not moved), for any proof data over the arrays `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every tile, fetched there or not (a window that is not
    fetched again has not moved), for any proof data over the arrays `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every tile, fetched there or not (a window that is not
    fetched again has not moved), for any proof data over the arrays `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every tile, fetched there or not (a window that is not
    fetched again has not moved), for any proof data over the arrays `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every tile, fetched there or not (a window that is not
    fetched again has not moved), for any proof data over the arrays `V` whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- Input window 7's current staging buffer holds its block at every tile, fetched there or not (a window that is not
    fetched again has not moved), for any proof data over the arrays `V` whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- For any proof data over the arrays `V`: a run that ends with every array of the region at what the library computes
    from the data, and every other buffer at what the later host operations leave, ends with the twelve argument arrays
    as launched — the bias the region stages as an input keeps its contents, the other eleven are bypassing buffers no
    operation writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).1 5).trans (((dats 0 c).arrAt_in 5 rfl _).trans ((hA c 5).trans (V_main_arg11 m c)))⟩) h

end Cert.Kernel.Edge

end
-- ==== Proof.KEdgeBody.lean ====
/-
  The edge kernel's body on one tile of 6400 edges, at any float instance.

  The body reads eight blocks — the tile's rows of the edge features, of the gathered key, query and value rows, the
  edge weight matrix, its bias, and the two 0/1 head-selector matrices — and stores three: the per-lane score, the
  weighted value rows, and the per-head weight. Each store overwrites its whole buffer, so what a buffer holds after the
  body is its one store's value, a pure function of the eight blocks read (the skeleton's payloads). The body also
  loads each output buffer before storing into it; the loaded values are used nowhere, so the buffers may hold anything
  when the body starts.
-/
import proofs.«155304_j53326313947334_2_alg».proof.Proof.KEdgeHost

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: each the whole of its buffer -/

abbrev rTile : Rect S6400x128 := Rect.unit (s := S6400x128) ![0, 0] S6400x128.size inb_S6400x128_S6400x128_0_0
abbrev rWeight : Rect S128x128 := Rect.unit (s := S128x128) ![0, 0] S128x128.size inb_S128x128_S128x128_0_0
abbrev rBias : Rect S128 := Rect.unit (s := S128) ![0] S128.size inb_S128_S128_0
abbrev rSel : Rect S128x8 := Rect.unit (s := S128x8) ![0, 0] S128x8.size inb_S128x8_S128x8_0_0
abbrev rSelT : Rect S8x128 := Rect.unit (s := S8x128) ![0, 0] S8x128.size inb_S8x128_S8x128_0_0
abbrev rHeads : Rect S6400x8 := Rect.unit (s := S6400x8) ![0, 0] S6400x8.size inb_S6400x8_S6400x8_0_0

/-! ## What the body leaves in each output buffer -/

/-- The clamped per-head sums of the scores, before the exponential: the skeleton's fifth payload of the blocks read. -/
abbrev headSums (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : FVec F S6400x8 .f32 :=
  k0_pay5 (View.ld x0 rTile) (View.ld x1 rTile) (View.ld x2 rTile) (View.ld x4 rWeight) (View.ld x5 rBias) (View.ld x6 rSel)

/-- The score buffer after the body: its one store, the skeleton's fourth payload. -/
def scoreOut (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : Vec F S6400x128 .f32 :=
  View.canon [⟨rTile, k0_pay4 (View.ld x0 rTile) (View.ld x1 rTile) (View.ld x2 rTile) (View.ld x4 rWeight) (View.ld x5 rBias)⟩]

/-- The weighted-value buffer after the body: the value rows times the weights spread back over the lanes. -/
def valueOut (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : Vec F S6400x128 .f32 :=
  View.canon [⟨rTile, k0_pay2 (k0_pay3 (View.ld x3 rTile)) (View.ld x7 rSelT) (headSums x0 x1 x2 x3 x4 x5 x6 x7)⟩]

/-- The per-head weight buffer after the body: the exponential of the clamped sums. -/
def weightOut (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : Vec F S6400x8 .f32 :=
  View.canon [⟨rHeads, k0_pay1 (headSums x0 x1 x2 x3 x4 x5 x6 x7)⟩]

/-- One store of the whole buffer covers it. -/
theorem cover_tile (p0 : Vec F S6400x128 .f32) (y : S6400x128.Idx) :
    ∃ pc ∈ ([⟨rTile, p0⟩] : List (View.Piece (Elt F) S6400x128 .f32)), y ∈ pc.1.set :=
  View.cover_of_tiled [⟨rTile, p0⟩] S6400x128.size (by rfl) y
theorem cover_heads (p0 : Vec F S6400x8 .f32) (y : S6400x8.Idx) :
    ∃ pc ∈ ([⟨rHeads, p0⟩] : List (View.Piece (Elt F) S6400x8 .f32)), y ∈ pc.1.set :=
  View.cover_of_tiled [⟨rHeads, p0⟩] S6400x8.size (by rfl) y

/-! ## The body's triple -/

set_option maxHeartbeats 4000000 in
/-- The body on whole staging buffers — the eight inputs' at contents `x0 … x7`, the three outputs' at anything — runs to
    the continuation with the inputs' as they were and each output's at its function of the inputs'. -/
theorem sound_kernel (c : Dev nD) (E : Set ℕ) (i : grid0.Coords) (arg1 : Memref sig .tc .vmem S6400x128 .bf16) (harg1 : arg1.IsWhole) (arg2 : Memref sig .tc .vmem S6400x128 .bf16) (harg2 : arg2.IsWhole) (arg3 : Memref sig .tc .vmem S6400x128 .bf16) (harg3 : arg3.IsWhole) (arg4 : Memref sig .tc .vmem S6400x128 .bf16) (harg4 : arg4.IsWhole) (arg5 : Memref sig .tc .vmem S128x128 .bf16) (harg5 : arg5.IsWhole) (arg6 : Memref sig .tc .vmem S128 .f32) (harg6 : arg6.IsWhole) (arg7 : Memref sig .tc .vmem S128x8 .f32) (harg7 : arg7.IsWhole) (arg8 : Memref sig .tc .vmem S8x128 .f32) (harg8 : arg8.IsWhole) (arg9 : Memref sig .tc .vmem S6400x128 .f32) (harg9 : arg9.IsWhole) (arg10 : Memref sig .tc .vmem S6400x128 .f32) (harg10 : arg10.IsWhole) (arg11 : Memref sig .tc .vmem S6400x8 .f32) (harg11 : arg11.IsWhole)
    (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (scoreOut x0 x1 x2 x3 x4 x5 x6 x7) ∗ owns (c : Thread nD τ) arg10 fullShare (valueOut x0 x1 x2 x3 x4 x5 x6 x7)
            ∗ owns (c : Thread nD τ) arg11 fullShare (weightOut x0 x1 x2 x3 x4 x5 x6 x7)) -∗ K ⟨⟩))
      ⊢ wp frame (wpE (defs₀ (F := F)) Variants.none c none) E (cc0__edge_chain_kernel i arg1 harg1 arg2 harg2 arg3 harg3 arg4 harg4 arg5 harg5 arg6 harg6 arg7 harg7 arg8 harg8 arg9 harg9 arg10 harg10 arg11 harg11) K := by
  simp only [cc0__edge_chain_kernel_eq_skeleton]; unfold cc0__edge_chain_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_tile _)
  isplitl [H9]
  · iexists _; isplitr
    swap; · iexact H9
    ipureintro
    try dsimp only
    exact View.read_writes_eq_canon _ _ _ (cover_tile _)
  iexists _; isplitr
  swap; · iexact H10
  ipureintro
  try dsimp only
  exact View.read_writes_eq_canon _ _ _ (cover_heads _)

end Cert.Kernel.Edge

end
-- ==== Proof.KEdgeRun.lean ====
/-
  The edge kernel's run over its 125 tiles, and the program's frame, at any float instance.

  The region's proof data: every array as the region finds it; after the body at tile `t` each input's staging buffer
  still at its block, and each of the three outputs' at its function of the tile's eight input blocks; nothing kept
  between tiles. The body obligation at a tile is the body's triple at the tile's blocks, and the launch theorem for a
  region followed by host operations gives the run: every array ends at what the tiles wrote back, every other buffer
  at what the later host operations computed.
-/
import proofs.«155304_j53326313947334_2_alg».proof.Proof.KEdgeBody

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The region's proof data on core `c`. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => scoreOut (blockAt m c 0 t) (blockAt m c 1 t) (blockAt m c 2 t) (blockAt m c 3 t) (blockAt m c 4 t) (blockAt m c 5 t) (blockAt m c 6 t) (blockAt m c 7 t)
    | ⟨9, _⟩ => valueOut (blockAt m c 0 t) (blockAt m c 1 t) (blockAt m c 2 t) (blockAt m c 3 t) (blockAt m c 4 t) (blockAt m c 5 t) (blockAt m c 6 t) (blockAt m c 7 t)
    | ⟨10, _⟩ => weightOut (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

/-- Its arrays are the region-entry contents (the definition projected, `V` never unfolded). -/
theorem A_eq (c : Dev nD) (w : Fin cfg0.W) : (dats m 0 c).A w = V m c (Pipeline.arrRef spec0 w) := by
  dsimp only [dats]

/-! What the body leaves, window by window. -/
theorem after_w0 (c : Dev nD) (t : Fin cfg0.N) : (dats m 0 c).after 0 t = blockAt m c 0 t := by dsimp only [dats]
theorem after_w1 (c : Dev nD) (t : Fin cfg0.N) : (dats m 0 c).after 1 t = blockAt m c 1 t := by dsimp only [dats]
theorem after_w2 (c : Dev nD) (t : Fin cfg0.N) : (dats m 0 c).after 2 t = blockAt m c 2 t := by dsimp only [dats]
theorem after_w3 (c : Dev nD) (t : Fin cfg0.N) : (dats m 0 c).after 3 t = blockAt m c 3 t := by dsimp only [dats]
theorem after_w4 (c : Dev nD) (t : Fin cfg0.N) : (dats m 0 c).after 4 t = blockAt m c 4 t := by dsimp only [dats]
theorem after_w5 (c : Dev nD) (t : Fin cfg0.N) : (dats m 0 c).after 5 t = blockAt m c 5 t := by dsimp only [dats]
theorem after_w6 (c : Dev nD) (t : Fin cfg0.N) : (dats m 0 c).after 6 t = blockAt m c 6 t := by dsimp only [dats]
theorem after_w7 (c : Dev nD) (t : Fin cfg0.N) : (dats m 0 c).after 7 t = blockAt m c 7 t := by dsimp only [dats]
theorem after_w8 (c : Dev nD) (t : Fin cfg0.N) : (dats m 0 c).after 8 t = scoreOut (blockAt m c 0 t) (blockAt m c 1 t) (blockAt m c 2 t) (blockAt m c 3 t) (blockAt m c 4 t) (blockAt m c 5 t) (blockAt m c 6 t) (blockAt m c 7 t) := by dsimp only [dats]
theorem after_w9 (c : Dev nD) (t : Fin cfg0.N) : (dats m 0 c).after 9 t = valueOut (blockAt m c 0 t) (blockAt m c 1 t) (blockAt m c 2 t) (blockAt m c 3 t) (blockAt m c 4 t) (blockAt m c 5 t) (blockAt m c 6 t) (blockAt m c 7 t) := by dsimp only [dats]
theorem after_w10 (c : Dev nD) (t : Fin cfg0.N) : (dats m 0 c).after 10 t = weightOut (blockAt m c 0 t) (blockAt m c 1 t) (blockAt m c 2 t) (blockAt m c 3 t) (blockAt m c 4 t) (blockAt m c 5 t) (blockAt m c 6 t) (blockAt m c 7 t) := by dsimp only [dats]

/-! Each input's current staging buffer holds its block at every tile. -/
theorem before_w0 (c : Dev nD) (t : Fin cfg0.N) (d) : (dats m 0 c).before 0 t d = blockAt m c 0 t :=
  before_in0 m (dats m 0 c) (A_eq m c 0) (after_w0 m c) t d
theorem before_w1 (c : Dev nD) (t : Fin cfg0.N) (d) : (dats m 0 c).before 1 t d = blockAt m c 1 t :=
  before_in1 m (dats m 0 c) (A_eq m c 1) (after_w1 m c) t d
theorem before_w2 (c : Dev nD) (t : Fin cfg0.N) (d) : (dats m 0 c).before 2 t d = blockAt m c 2 t :=
  before_in2 m (dats m 0 c) (A_eq m c 2) (after_w2 m c) t d
theorem before_w3 (c : Dev nD) (t : Fin cfg0.N) (d) : (dats m 0 c).before 3 t d = blockAt m c 3 t :=
  before_in3 m (dats m 0 c) (A_eq m c 3) (after_w3 m c) t d
theorem before_w4 (c : Dev nD) (t : Fin cfg0.N) (d) : (dats m 0 c).before 4 t d = blockAt m c 4 t :=
  before_in4 m (dats m 0 c) (A_eq m c 4) (after_w4 m c) t d
theorem before_w5 (c : Dev nD) (t : Fin cfg0.N) (d) : (dats m 0 c).before 5 t d = blockAt m c 5 t :=
  before_in5 m (dats m 0 c) (A_eq m c 5) (after_w5 m c) t d
theorem before_w6 (c : Dev nD) (t : Fin cfg0.N) (d) : (dats m 0 c).before 6 t d = blockAt m c 6 t :=
  before_in6 m (dats m 0 c) (A_eq m c 6) (after_w6 m c) t d
theorem before_w7 (c : Dev nD) (t : Fin cfg0.N) (d) : (dats m 0 c).before 7 t d = blockAt m c 7 t :=
  before_in7 m (dats m 0 c) (A_eq m c 7) (after_w7 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- The body at any tile: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5, before_w6, before_w7]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6, after_w7, after_w8, after_w9, after_w10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has every
    array of the region at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- THE FRAME: @main terminates, faults nowhere, and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Edge

end
-- ==== Proof.EdgeHost.lean ====
/-
  The host side of the edge-attention program's frame, at any float instance.

  @main is: five stretches of host operations (the fused Q/K/V projection and its three column slices, three row
  gathers, two format changes), ONE region (the edge kernel on a grid of 125 tiles of 6400 edges), and sixteen host
  operations after it (two scatter-adds over the destination node, reshapes, the quotient). This module says what every
  buffer holds when the region is entered (`V`), that no host operation writes an argument array, what a window's block
  at a tile is (`blockAt`), and how the frame claim's post follows from a run that ends with every array of the region
  at what the tiles wrote and every other buffer at what the later host operations computed.
-/
import proofs.«155304_j53326313947334_2_alg».proof.Proof.Gen.KernelIdeal.Launch
import proofs.«155304_j53326313947334_2_alg».proof.Proof.Gen.KernelIdeal.Skeleton
import proofs.«155304_j53326313947334_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the five stretches of host operations that precede the region. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is no array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 0, which no window stages, ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does one after it: argument 1, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does one after it: argument 2, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does one after it: argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does one after it: argument 4, which no window stages, ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does one after it: argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does one after it: argument 6, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does one after it: argument 7, which no window stages, ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does one after it: argument 8, which no window stages, ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does one after it: argument 9, which no window stages, ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does one after it: argument 10, which no window stages, ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## A window's block at a tile -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not (a window that is not
    fetched again has not moved), for any proof data over the arrays `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every tile, fetched there or not (a window that is not
    fetched again has not moved), for any proof data over the arrays `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every tile, fetched there or not (a window that is not
    fetched again has not moved), for any proof data over the arrays `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every tile, fetched there or not (a window that is not
    fetched again has not moved), for any proof data over the arrays `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every tile, fetched there or not (a window that is not
    fetched again has not moved), for any proof data over the arrays `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every tile, fetched there or not (a window that is not
    fetched again has not moved), for any proof data over the arrays `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every tile, fetched there or not (a window that is not
    fetched again has not moved), for any proof data over the arrays `V` whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- Input window 7's current staging buffer holds its block at every tile, fetched there or not (a window that is not
    fetched again has not moved), for any proof data over the arrays `V` whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- For any proof data over the arrays `V`: a run that ends with every array of the region at what the library computes
    from the data, and every other buffer at what the later host operations leave, ends with the twelve argument arrays
    as launched — the bias the region stages as an input keeps its contents, the other eleven are bypassing buffers no
    operation writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).1 5).trans (((dats 0 c).arrAt_in 5 rfl _).trans ((hA c 5).trans (V_main_arg11 m c)))⟩) h

end Cert.KernelIdeal.Edge

end
-- ==== Proof.EdgeBody.lean ====
/-
  The edge kernel's body on one tile of 6400 edges, at any float instance.

  The body reads eight blocks — the tile's rows of the edge features, of the gathered key, query and value rows, the
  edge weight matrix, its bias, and the two 0/1 head-selector matrices — and stores three: the per-lane score, the
  weighted value rows, and the per-head weight. Each store overwrites its whole buffer, so what a buffer holds after the
  body is its one store's value, a pure function of the eight blocks read (the skeleton's payloads). The body also
  loads each output buffer before storing into it; the loaded values are used nowhere, so the buffers may hold anything
  when the body starts.
-/
import proofs.«155304_j53326313947334_2_alg».proof.Proof.EdgeHost

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: each the whole of its buffer -/

abbrev rTile : Rect S6400x128 := Rect.unit (s := S6400x128) ![0, 0] S6400x128.size inb_S6400x128_S6400x128_0_0
abbrev rWeight : Rect S128x128 := Rect.unit (s := S128x128) ![0, 0] S128x128.size inb_S128x128_S128x128_0_0
abbrev rBias : Rect S128 := Rect.unit (s := S128) ![0] S128.size inb_S128_S128_0
abbrev rSel : Rect S128x8 := Rect.unit (s := S128x8) ![0, 0] S128x8.size inb_S128x8_S128x8_0_0
abbrev rSelT : Rect S8x128 := Rect.unit (s := S8x128) ![0, 0] S8x128.size inb_S8x128_S8x128_0_0
abbrev rHeads : Rect S6400x8 := Rect.unit (s := S6400x8) ![0, 0] S6400x8.size inb_S6400x8_S6400x8_0_0

/-! ## What the body leaves in each output buffer -/

/-- The clamped per-head sums of the scores, before the exponential: the skeleton's fifth payload of the blocks read. -/
abbrev headSums (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : FVec F S6400x8 .f32 :=
  k0_pay5 (View.ld x0 rTile) (View.ld x1 rTile) (View.ld x2 rTile) (View.ld x4 rWeight) (View.ld x5 rBias) (View.ld x6 rSel)

/-- The score buffer after the body: its one store, the skeleton's fourth payload. -/
def scoreOut (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : Vec F S6400x128 .f32 :=
  View.canon [⟨rTile, k0_pay4 (View.ld x0 rTile) (View.ld x1 rTile) (View.ld x2 rTile) (View.ld x4 rWeight) (View.ld x5 rBias)⟩]

/-- The weighted-value buffer after the body: the value rows times the weights spread back over the lanes. -/
def valueOut (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : Vec F S6400x128 .f32 :=
  View.canon [⟨rTile, k0_pay2 (k0_pay3 (View.ld x3 rTile)) (View.ld x7 rSelT) (headSums x0 x1 x2 x3 x4 x5 x6 x7)⟩]

/-- The per-head weight buffer after the body: the exponential of the clamped sums. -/
def weightOut (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) : Vec F S6400x8 .f32 :=
  View.canon [⟨rHeads, k0_pay1 (headSums x0 x1 x2 x3 x4 x5 x6 x7)⟩]

/-- One store of the whole buffer covers it. -/
theorem cover_tile (p0 : Vec F S6400x128 .f32) (y : S6400x128.Idx) :
    ∃ pc ∈ ([⟨rTile, p0⟩] : List (View.Piece (Elt F) S6400x128 .f32)), y ∈ pc.1.set :=
  View.cover_of_tiled [⟨rTile, p0⟩] S6400x128.size (by rfl) y
theorem cover_heads (p0 : Vec F S6400x8 .f32) (y : S6400x8.Idx) :
    ∃ pc ∈ ([⟨rHeads, p0⟩] : List (View.Piece (Elt F) S6400x8 .f32)), y ∈ pc.1.set :=
  View.cover_of_tiled [⟨rHeads, p0⟩] S6400x8.size (by rfl) y

/-! ## The body's triple -/

set_option maxHeartbeats 4000000 in
/-- The body on whole staging buffers — the eight inputs' at contents `x0 … x7`, the three outputs' at anything — runs to
    the continuation with the inputs' as they were and each output's at its function of the inputs'. -/
theorem sound_kernel (c : Dev nD) (E : Set ℕ) (i : grid0.Coords) (arg1 : Memref sig .tc .vmem S6400x128 .bf16) (harg1 : arg1.IsWhole) (arg2 : Memref sig .tc .vmem S6400x128 .bf16) (harg2 : arg2.IsWhole) (arg3 : Memref sig .tc .vmem S6400x128 .bf16) (harg3 : arg3.IsWhole) (arg4 : Memref sig .tc .vmem S6400x128 .bf16) (harg4 : arg4.IsWhole) (arg5 : Memref sig .tc .vmem S128x128 .bf16) (harg5 : arg5.IsWhole) (arg6 : Memref sig .tc .vmem S128 .f32) (harg6 : arg6.IsWhole) (arg7 : Memref sig .tc .vmem S128x8 .f32) (harg7 : arg7.IsWhole) (arg8 : Memref sig .tc .vmem S8x128 .f32) (harg8 : arg8.IsWhole) (arg9 : Memref sig .tc .vmem S6400x128 .f32) (harg9 : arg9.IsWhole) (arg10 : Memref sig .tc .vmem S6400x128 .f32) (harg10 : arg10.IsWhole) (arg11 : Memref sig .tc .vmem S6400x8 .f32) (harg11 : arg11.IsWhole)
    (x0 : Vec F S6400x128 .bf16) (x1 : Vec F S6400x128 .bf16) (x2 : Vec F S6400x128 .bf16) (x3 : Vec F S6400x128 .bf16) (x4 : Vec F S128x128 .bf16) (x5 : Vec F S128 .f32) (x6 : Vec F S128x8 .f32) (x7 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (scoreOut x0 x1 x2 x3 x4 x5 x6 x7) ∗ owns (c : Thread nD τ) arg10 fullShare (valueOut x0 x1 x2 x3 x4 x5 x6 x7)
            ∗ owns (c : Thread nD τ) arg11 fullShare (weightOut x0 x1 x2 x3 x4 x5 x6 x7)) -∗ K ⟨⟩))
      ⊢ wp frame (wpE (defs₀ (F := F)) Variants.none c none) E (cc0__edge_chain_kernel i arg1 harg1 arg2 harg2 arg3 harg3 arg4 harg4 arg5 harg5 arg6 harg6 arg7 harg7 arg8 harg8 arg9 harg9 arg10 harg10 arg11 harg11) K := by
  simp only [cc0__edge_chain_kernel_eq_skeleton]; unfold cc0__edge_chain_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_tile _)
  isplitl [H9]
  · iexists _; isplitr
    swap; · iexact H9
    ipureintro
    try dsimp only
    exact View.read_writes_eq_canon _ _ _ (cover_tile _)
  iexists _; isplitr
  swap; · iexact H10
  ipureintro
  try dsimp only
  exact View.read_writes_eq_canon _ _ _ (cover_heads _)

end Cert.KernelIdeal.Edge

end
-- ==== Proof.EdgeRun.lean ====
/-
  The edge kernel's run over its 125 tiles, and the program's frame, at any float instance.

  The region's proof data: every array as the region finds it; after the body at tile `t` each input's staging buffer
  still at its block, and each of the three outputs' at its function of the tile's eight input blocks; nothing kept
  between tiles. The body obligation at a tile is the body's triple at the tile's blocks, and the launch theorem for a
  region followed by host operations gives the run: every array ends at what the tiles wrote back, every other buffer
  at what the later host operations computed.
-/
import proofs.«155304_j53326313947334_2_alg».proof.Proof.EdgeBody

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The region's proof data on core `c`. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => scoreOut (blockAt m c 0 t) (blockAt m c 1 t) (blockAt m c 2 t) (blockAt m c 3 t) (blockAt m c 4 t) (blockAt m c 5 t) (blockAt m c 6 t) (blockAt m c 7 t)
    | ⟨9, _⟩ => valueOut (blockAt m c 0 t) (blockAt m c 1 t) (blockAt m c 2 t) (blockAt m c 3 t) (blockAt m c 4 t) (blockAt m c 5 t) (blockAt m c 6 t) (blockAt m c 7 t)
    | ⟨10, _⟩ => weightOut (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

/-- Its arrays are the region-entry contents (the definition projected, `V` never unfolded). -/
theorem A_eq (c : Dev nD) (w : Fin cfg0.W) : (dats m 0 c).A w = V m c (Pipeline.arrRef spec0 w) := by
  dsimp only [dats]

/-! What the body leaves, window by window. -/
theorem after_w0 (c : Dev nD) (t : Fin cfg0.N) : (dats m 0 c).after 0 t = blockAt m c 0 t := by dsimp only [dats]
theorem after_w1 (c : Dev nD) (t : Fin cfg0.N) : (dats m 0 c).after 1 t = blockAt m c 1 t := by dsimp only [dats]
theorem after_w2 (c : Dev nD) (t : Fin cfg0.N) : (dats m 0 c).after 2 t = blockAt m c 2 t := by dsimp only [dats]
theorem after_w3 (c : Dev nD) (t : Fin cfg0.N) : (dats m 0 c).after 3 t = blockAt m c 3 t := by dsimp only [dats]
theorem after_w4 (c : Dev nD) (t : Fin cfg0.N) : (dats m 0 c).after 4 t = blockAt m c 4 t := by dsimp only [dats]
theorem after_w5 (c : Dev nD) (t : Fin cfg0.N) : (dats m 0 c).after 5 t = blockAt m c 5 t := by dsimp only [dats]
theorem after_w6 (c : Dev nD) (t : Fin cfg0.N) : (dats m 0 c).after 6 t = blockAt m c 6 t := by dsimp only [dats]
theorem after_w7 (c : Dev nD) (t : Fin cfg0.N) : (dats m 0 c).after 7 t = blockAt m c 7 t := by dsimp only [dats]
theorem after_w8 (c : Dev nD) (t : Fin cfg0.N) : (dats m 0 c).after 8 t = scoreOut (blockAt m c 0 t) (blockAt m c 1 t) (blockAt m c 2 t) (blockAt m c 3 t) (blockAt m c 4 t) (blockAt m c 5 t) (blockAt m c 6 t) (blockAt m c 7 t) := by dsimp only [dats]
theorem after_w9 (c : Dev nD) (t : Fin cfg0.N) : (dats m 0 c).after 9 t = valueOut (blockAt m c 0 t) (blockAt m c 1 t) (blockAt m c 2 t) (blockAt m c 3 t) (blockAt m c 4 t) (blockAt m c 5 t) (blockAt m c 6 t) (blockAt m c 7 t) := by dsimp only [dats]
theorem after_w10 (c : Dev nD) (t : Fin cfg0.N) : (dats m 0 c).after 10 t = weightOut (blockAt m c 0 t) (blockAt m c 1 t) (blockAt m c 2 t) (blockAt m c 3 t) (blockAt m c 4 t) (blockAt m c 5 t) (blockAt m c 6 t) (blockAt m c 7 t) := by dsimp only [dats]

/-! Each input's current staging buffer holds its block at every tile. -/
theorem before_w0 (c : Dev nD) (t : Fin cfg0.N) (d) : (dats m 0 c).before 0 t d = blockAt m c 0 t :=
  before_in0 m (dats m 0 c) (A_eq m c 0) (after_w0 m c) t d
theorem before_w1 (c : Dev nD) (t : Fin cfg0.N) (d) : (dats m 0 c).before 1 t d = blockAt m c 1 t :=
  before_in1 m (dats m 0 c) (A_eq m c 1) (after_w1 m c) t d
theorem before_w2 (c : Dev nD) (t : Fin cfg0.N) (d) : (dats m 0 c).before 2 t d = blockAt m c 2 t :=
  before_in2 m (dats m 0 c) (A_eq m c 2) (after_w2 m c) t d
theorem before_w3 (c : Dev nD) (t : Fin cfg0.N) (d) : (dats m 0 c).before 3 t d = blockAt m c 3 t :=
  before_in3 m (dats m 0 c) (A_eq m c 3) (after_w3 m c) t d
theorem before_w4 (c : Dev nD) (t : Fin cfg0.N) (d) : (dats m 0 c).before 4 t d = blockAt m c 4 t :=
  before_in4 m (dats m 0 c) (A_eq m c 4) (after_w4 m c) t d
theorem before_w5 (c : Dev nD) (t : Fin cfg0.N) (d) : (dats m 0 c).before 5 t d = blockAt m c 5 t :=
  before_in5 m (dats m 0 c) (A_eq m c 5) (after_w5 m c) t d
theorem before_w6 (c : Dev nD) (t : Fin cfg0.N) (d) : (dats m 0 c).before 6 t d = blockAt m c 6 t :=
  before_in6 m (dats m 0 c) (A_eq m c 6) (after_w6 m c) t d
theorem before_w7 (c : Dev nD) (t : Fin cfg0.N) (d) : (dats m 0 c).before 7 t d = blockAt m c 7 t :=
  before_in7 m (dats m 0 c) (A_eq m c 7) (after_w7 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- The body at any tile: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5, before_w6, before_w7]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6, after_w7, after_w8, after_w9, after_w10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has every
    array of the region at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- THE FRAME: @main terminates, faults nowhere, and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Edge

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«155304_j53326313947334_2_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.EdgeSpec.lean ====
/-
  The specification: what the edge-attention layer computes, index by index, on the extended reals.

  A graph of 50000 nodes and 800000 edges; node features X [50000,128], edge features Ef [800000,128], each edge e with a
  source src e and a destination dst e; four dense layers of 128 lanes, the lanes read as 8 heads of 16 (lane 16h + d
  is coordinate d of head h). With Q, K, V the three dense layers of the node features and P that of the edge features,

    score e j   = clamp (K[s e, j] · Q[t e, j] · ¼) · P[e, j]             s e, t e the rows the gather selects
    weight e h  = exp (clamp (0 + Σ_d score e (16h + d)))
    e_out e h d = score e (16h + d)
    h_out n h d = (0 + Σ_{e into n} V[s e, 16h + d] · weight e h) / ((0 + Σ_{e into n} weight e h) + ε)

  where clamp is min 5 ∘ max (-5), a gather selects the row its index names read as a signed integer and clamped into
  [0, 49999], and an edge is "into n" when its destination, read signed, IS n (a scatter-add drops an edge whose
  destination is no node). The float literals stay the words the programs carry; the same word stands on both sides
  and is never evaluated.
-/
import Idealize.ShloMosaic.PureOps.Ideal
import Idealize.ShloMosaic.Lib.ValueIdx
import proofs.«155304_j53326313947334_2_alg».proof.Proof.LibGraphRows

noncomputable section

namespace Cert.EdgeSpec

open Idealize.ShloMosaic Idealize.ShloMosaic.ValueIdx

/-- Lane `16h + d`: coordinate `d` of head `h`. -/
def lane (h : Fin 8) (d : Fin 16) : Fin 128 := ⟨h.val * 16 + d.val, by omega⟩
/-- The head a lane belongs to. -/
def headOf (j : Fin 128) : Fin 8 := ⟨j.val / 16, by omega⟩

theorem headOf_lane (h : Fin 8) (d : Fin 16) : headOf (lane h d) = h := by
  apply Fin.ext; show (h.val * 16 + d.val) / 16 = h.val; omega

/-- One lane of a dense layer at one row: the row's dot product with the lane's column of weights, plus the bias. -/
def dense {R : ℕ} (A : FVec Ideal ⟨2, ![R, 128]⟩ .f32) (W : FVec Ideal ⟨2, ![128, 128]⟩ .f32) (b : FVec Ideal ⟨1, ![128]⟩ .f32)
    (r : Fin R) (j : Fin 128) : EReal :=
  (∑ k : Fin 128, A (ix2 r k) * W (ix2 k j)) + b (ix1 j)

/-- The node a gather reads for edge `e`: its index read signed, clamped into the node range. -/
def rowOf (idx : IVec ⟨1, ![800000]⟩ 32) (e : Fin 800000) : Fin 50000 :=
  Cert.Lib.GraphRows.clampRow (by decide) (idx (ix1 e))

/-- The edges a scatter-add lands on node `n`: those whose index, read signed, is `n`. -/
def landing (idx : IVec ⟨1, ![800000]⟩ 32) (n : Fin 50000) : Finset (Fin 800000) :=
  Finset.univ.filter fun e => (idx (ix1 e)).toInt = (n.val : ℤ)

/-- `min 5 ∘ max (-5)`, the bounds as the words the programs carry. -/
def clamp5 (x : EReal) : EReal :=
  min (Ideal.ofBits .f32 0x40A00000#32) (max (Ideal.ofBits .f32 0xC0A00000#32) x)

section
variable (X : FVec Ideal ⟨2, ![50000, 128]⟩ .f32) (Ef : FVec Ideal ⟨2, ![800000, 128]⟩ .f32)
    (src dst : IVec ⟨1, ![800000]⟩ 32)
    (Wq : FVec Ideal ⟨2, ![128, 128]⟩ .f32) (bq : FVec Ideal ⟨1, ![128]⟩ .f32)
    (Wk : FVec Ideal ⟨2, ![128, 128]⟩ .f32) (bk : FVec Ideal ⟨1, ![128]⟩ .f32)
    (Wv : FVec Ideal ⟨2, ![128, 128]⟩ .f32) (bv : FVec Ideal ⟨1, ![128]⟩ .f32)
    (We : FVec Ideal ⟨2, ![128, 128]⟩ .f32) (be : FVec Ideal ⟨1, ![128]⟩ .f32)

/-- The clamped key-query product of an edge's endpoints, scaled by a quarter, times the edge's own projection. -/
def score (e : Fin 800000) (j : Fin 128) : EReal :=
  clamp5 (dense X Wk bk (rowOf src e) j * dense X Wq bq (rowOf dst e) j * Ideal.ofBits .f32 0x3E800000#32)
    * dense Ef We be e j

/-- An edge's attention weight in head `h`: the exponential of the clamped sum of the head's scores. -/
def weight (e : Fin 800000) (h : Fin 8) : EReal :=
  Ideal.exp (clamp5 (Ideal.ofBits .f32 0x00000000#32 + ∑ d : Fin 16, score X Ef src dst Wq bq Wk bk We be e (lane h d)))

/-- An edge's weighted value row: its source's value projection times the weight of the lane's head. -/
def weighted (e : Fin 800000) (j : Fin 128) : EReal :=
  dense X Wv bv (rowOf src e) j * weight X Ef src dst Wq bq Wk bk We be e (headOf j)

/-- The first result at node `n`, head `h`, coordinate `d`: the weighted values of the edges into the node over their
    weights. -/
def hOutAt (n : Fin 50000) (h : Fin 8) (d : Fin 16) : EReal :=
  Ideal.div
    (Ideal.ofBits .f32 0x00000000#32 + ∑ e ∈ landing dst n, weighted X Ef src dst Wq bq Wk bk Wv bv We be e (lane h d))
    ((Ideal.ofBits .f32 0x00000000#32 + ∑ e ∈ landing dst n, weight X Ef src dst Wq bq Wk bk We be e h)
      + Ideal.ofBits .f32 0x322BCC77#32)

/-- The second result at edge `e`, head `h`, coordinate `d`: the score of the head's lane. -/
def eOutAt (e : Fin 800000) (h : Fin 8) (d : Fin 16) : EReal :=
  score X Ef src dst Wq bq Wk bk We be e (lane h d)

/-- The first result as an array. -/
def hOut : FVec Ideal ⟨3, ![50000, 8, 16]⟩ .f32 := fun i =>
  hOutAt X Ef src dst Wq bq Wk bk Wv bv We be (i 0) (i 1) (i 2)

/-- The second result as an array. -/
def eOut : FVec Ideal ⟨3, ![800000, 8, 16]⟩ .f32 := fun i =>
  eOutAt X Ef src dst Wq bq Wk bk We be (i 0) (i 1) (i 2)

end

end Cert.EdgeSpec

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.EdgeArrays.lean ====
/-
  What the region finds in the arrays it stages, on the extended reals, as functions of the program's arguments.

  The host operations before the region multiply the node features by the three projection matrices laid side by side
  (one [128, 384] matrix), add the three biases laid end to end, cut the product into its three [50000, 128] column blocks,
  and gather rows of the blocks at the edges' endpoints. Read at an index: column 128p + j of the fused product is lane j
  of projection p (a concatenation read at an index is the piece that holds the index), and a gathered row is the row
  the index names, read signed and clamped into the table. A change of float format is the identity here.
-/
import proofs.«155304_j53326313947334_2_alg».proof.Proof.EdgeRun
import proofs.«155304_j53326313947334_2_alg».proof.Proof.EdgeSpec
import proofs.«155304_j53326313947334_2_alg».proof.Proof.LibPlainDotGeneral
import proofs.«155304_j53326313947334_2_alg».proof.Proof.LibHostRows
import proofs.«155304_j53326313947334_2_alg».proof.Proof.LibHostColumns
import Idealize.ShloMosaic.Lib.StableHlo.Run
import Idealize.ShloMosaic.Lib.Pipeline.Value
import Idealize.ShloMosaic.PureOps.Ideal

set_option maxRecDepth 16384

noncomputable section

namespace Cert.KernelIdeal.EdgeValue

open Idealize.ShloMosaic Idealize.ShloMosaic.TcCoe Idealize.ShloMosaic.ValueIdx Idealize.SL.Sem Idealize.ShloMosaic.StableHlo
open Cert.KernelIdeal Cert.KernelIdeal.Gen Cert.KernelIdeal.Edge Cert.EdgeSpec

/-! ## The three projection matrices side by side, the three biases end to end -/

/-- Column `0 + j` of the three matrices laid side by side is column `j` of matrix 0. -/
theorem wcat_q (a4 a6 a8 : FVec Ideal S128x128 .f32) (r j : Fin 128) :
    concatenate S128x384 1 [⟨S128x128, a4⟩, ⟨S128x128, a6⟩, ⟨S128x128, a8⟩] concatenates_S128x128_S128x128_S128x128_S128x384_d1
      (ix2 r (⟨0 + j.val, by have := j.isLt; omega⟩ : Fin 384)) = a4 (ix2 r j) :=
  concatenate_apply_piece (t := S128x384) (1 : Fin 2) [⟨S128x128, a4⟩, ⟨S128x128, a6⟩, ⟨S128x128, a8⟩] concatenates_S128x128_S128x128_S128x128_S128x384_d1
    (ix2 r (⟨0 + j.val, by have := j.isLt; omega⟩ : Fin 384)) 0 (by show 0 < 3; decide) S128x128 a4 rfl rfl 0 (by rfl) (ix2 r j)
    (fun b hb => by match b with
      | ⟨0, _⟩ => rfl
      | ⟨1, _⟩ => exact absurd rfl hb)
    rfl

/-- Entry `0 + j` of the three biases laid end to end is entry `j` of bias 0. -/
theorem bcat_q (a5 a7 a9 : FVec Ideal S128 .f32) (j : Fin 128) :
    concatenate S384 0 [⟨S128, a5⟩, ⟨S128, a7⟩, ⟨S128, a9⟩] concatenates_S128_S128_S128_S384_d0
      (ix1 (⟨0 + j.val, by have := j.isLt; omega⟩ : Fin 384)) = a5 (ix1 j) :=
  concatenate_apply_piece (t := S384) (0 : Fin 1) [⟨S128, a5⟩, ⟨S128, a7⟩, ⟨S128, a9⟩] concatenates_S128_S128_S128_S384_d0
    (ix1 (⟨0 + j.val, by have := j.isLt; omega⟩ : Fin 384)) 0 (by show 0 < 3; decide) S128 a5 rfl rfl 0 (by rfl) (ix1 j)
    (fun b hb => by match b with
      | ⟨0, _⟩ => exact absurd rfl hb)
    rfl

/-- Column `128 + j` of the three matrices laid side by side is column `j` of matrix 1. -/
theorem wcat_k (a4 a6 a8 : FVec Ideal S128x128 .f32) (r j : Fin 128) :
    concatenate S128x384 1 [⟨S128x128, a4⟩, ⟨S128x128, a6⟩, ⟨S128x128, a8⟩] concatenates_S128x128_S128x128_S128x128_S128x384_d1
      (ix2 r (⟨128 + j.val, by have := j.isLt; omega⟩ : Fin 384)) = a6 (ix2 r j) :=
  concatenate_apply_piece (t := S128x384) (1 : Fin 2) [⟨S128x128, a4⟩, ⟨S128x128, a6⟩, ⟨S128x128, a8⟩] concatenates_S128x128_S128x128_S128x128_S128x384_d1
    (ix2 r (⟨128 + j.val, by have := j.isLt; omega⟩ : Fin 384)) 1 (by show 1 < 3; decide) S128x128 a6 rfl rfl 128 (by rfl) (ix2 r j)
    (fun b hb => by match b with
      | ⟨0, _⟩ => rfl
      | ⟨1, _⟩ => exact absurd rfl hb)
    rfl

/-- Entry `128 + j` of the three biases laid end to end is entry `j` of bias 1. -/
theorem bcat_k (a5 a7 a9 : FVec Ideal S128 .f32) (j : Fin 128) :
    concatenate S384 0 [⟨S128, a5⟩, ⟨S128, a7⟩, ⟨S128, a9⟩] concatenates_S128_S128_S128_S384_d0
      (ix1 (⟨128 + j.val, by have := j.isLt; omega⟩ : Fin 384)) = a7 (ix1 j) :=
  concatenate_apply_piece (t := S384) (0 : Fin 1) [⟨S128, a5⟩, ⟨S128, a7⟩, ⟨S128, a9⟩] concatenates_S128_S128_S128_S384_d0
    (ix1 (⟨128 + j.val, by have := j.isLt; omega⟩ : Fin 384)) 1 (by show 1 < 3; decide) S128 a7 rfl rfl 128 (by rfl) (ix1 j)
    (fun b hb => by match b with
      | ⟨0, _⟩ => exact absurd rfl hb)
    rfl

/-- Column `256 + j` of the three matrices laid side by side is column `j` of matrix 2. -/
theorem wcat_v (a4 a6 a8 : FVec Ideal S128x128 .f32) (r j : Fin 128) :
    concatenate S128x384 1 [⟨S128x128, a4⟩, ⟨S128x128, a6⟩, ⟨S128x128, a8⟩] concatenates_S128x128_S128x128_S128x128_S128x384_d1
      (ix2 r (⟨256 + j.val, by have := j.isLt; omega⟩ : Fin 384)) = a8 (ix2 r j) :=
  concatenate_apply_piece (t := S128x384) (1 : Fin 2) [⟨S128x128, a4⟩, ⟨S128x128, a6⟩, ⟨S128x128, a8⟩] concatenates_S128x128_S128x128_S128x128_S128x384_d1
    (ix2 r (⟨256 + j.val, by have := j.isLt; omega⟩ : Fin 384)) 2 (by show 2 < 3; decide) S128x128 a8 rfl rfl 256 (by rfl) (ix2 r j)
    (fun b hb => by match b with
      | ⟨0, _⟩ => rfl
      | ⟨1, _⟩ => exact absurd rfl hb)
    rfl

/-- Entry `256 + j` of the three biases laid end to end is entry `j` of bias 2. -/
theorem bcat_v (a5 a7 a9 : FVec Ideal S128 .f32) (j : Fin 128) :
    concatenate S384 0 [⟨S128, a5⟩, ⟨S128, a7⟩, ⟨S128, a9⟩] concatenates_S128_S128_S128_S384_d0
      (ix1 (⟨256 + j.val, by have := j.isLt; omega⟩ : Fin 384)) = a9 (ix1 j) :=
  concatenate_apply_piece (t := S384) (0 : Fin 1) [⟨S128, a5⟩, ⟨S128, a7⟩, ⟨S128, a9⟩] concatenates_S128_S128_S128_S384_d0
    (ix1 (⟨256 + j.val, by have := j.isLt; omega⟩ : Fin 384)) 2 (by show 2 < 3; decide) S128 a9 rfl rfl 256 (by rfl) (ix1 j)
    (fun b hb => by match b with
      | ⟨0, _⟩ => exact absurd rfl hb)
    rfl

/-! ## The fused projection -/

/-- The node features times the three matrices side by side, plus the three biases end to end down every row. -/
def fused (a0 : FVec Ideal S50000x128 .f32) (a4 a6 a8 : FVec Ideal S128x128 .f32) (a5 a7 a9 : FVec Ideal S128 .f32) :
    FVec Ideal S50000x384 .f32 :=
  addf (Host.dotGeneral dot_S50000x128_S128x384_S50000x384_1_0_0_1_n_n none a0
      (concatenate S128x384 1 [⟨S128x128, a4⟩, ⟨S128x128, a6⟩, ⟨S128x128, a8⟩] concatenates_S128x128_S128x128_S128x128_S128x384_d1))
    (broadcastInDim S50000x384 ![0, 1] bcast_S1x384_S50000x384_0_1
      (broadcastInDim S1x384 ![1] bcast_S384_S1x384_1
        (concatenate S384 0 [⟨S128, a5⟩, ⟨S128, a7⟩, ⟨S128, a9⟩] concatenates_S128_S128_S128_S384_d0)))

/-- Column `0 + j` of the fused projection at node `n` is lane `j` of dense layer 0 at `n`. -/
theorem fused_q (a0 : FVec Ideal S50000x128 .f32) (a4 a6 a8 : FVec Ideal S128x128 .f32) (a5 a7 a9 : FVec Ideal S128 .f32)
    (n : Fin 50000) (j : Fin 128) :
    fused a0 a4 a6 a8 a5 a7 a9 (ix2 n (⟨0 + j.val, by have := j.isLt; omega⟩ : Fin 384)) = dense a0 a4 a5 n j := by
  unfold fused dense
  show _ + _ = _ + _
  refine congrArg₂ (· + ·) ?_ ?_
  · exact (Cert.Lib.PlainDotGeneral.dotGeneral_apply dot_S50000x128_S128x384_S50000x384_1_0_0_1_n_n rfl rfl rfl rfl rfl rfl none _ a0 _ n _).trans
      (Finset.sum_congr rfl fun k _ => congrArg (a0 (ix2 n k) * ·) (wcat_q a4 a6 a8 k j))
  · exact ((Cert.Lib.HostRows.bcast_1b_ab_apply _ _ n _).trans (Cert.Lib.HostRows.bcast_b_1b_apply _ _ 0 _)).trans
      (bcat_q a5 a7 a9 j)

/-- Column `128 + j` of the fused projection at node `n` is lane `j` of dense layer 1 at `n`. -/
theorem fused_k (a0 : FVec Ideal S50000x128 .f32) (a4 a6 a8 : FVec Ideal S128x128 .f32) (a5 a7 a9 : FVec Ideal S128 .f32)
    (n : Fin 50000) (j : Fin 128) :
    fused a0 a4 a6 a8 a5 a7 a9 (ix2 n (⟨128 + j.val, by have := j.isLt; omega⟩ : Fin 384)) = dense a0 a6 a7 n j := by
  unfold fused dense
  show _ + _ = _ + _
  refine congrArg₂ (· + ·) ?_ ?_
  · exact (Cert.Lib.PlainDotGeneral.dotGeneral_apply dot_S50000x128_S128x384_S50000x384_1_0_0_1_n_n rfl rfl rfl rfl rfl rfl none _ a0 _ n _).trans
      (Finset.sum_congr rfl fun k _ => congrArg (a0 (ix2 n k) * ·) (wcat_k a4 a6 a8 k j))
  · exact ((Cert.Lib.HostRows.bcast_1b_ab_apply _ _ n _).trans (Cert.Lib.HostRows.bcast_b_1b_apply _ _ 0 _)).trans
      (bcat_k a5 a7 a9 j)

/-- Column `256 + j` of the fused projection at node `n` is lane `j` of dense layer 2 at `n`. -/
theorem fused_v (a0 : FVec Ideal S50000x128 .f32) (a4 a6 a8 : FVec Ideal S128x128 .f32) (a5 a7 a9 : FVec Ideal S128 .f32)
    (n : Fin 50000) (j : Fin 128) :
    fused a0 a4 a6 a8 a5 a7 a9 (ix2 n (⟨256 + j.val, by have := j.isLt; omega⟩ : Fin 384)) = dense a0 a8 a9 n j := by
  unfold fused dense
  show _ + _ = _ + _
  refine congrArg₂ (· + ·) ?_ ?_
  · exact (Cert.Lib.PlainDotGeneral.dotGeneral_apply dot_S50000x128_S128x384_S50000x384_1_0_0_1_n_n rfl rfl rfl rfl rfl rfl none _ a0 _ n _).trans
      (Finset.sum_congr rfl fun k _ => congrArg (a0 (ix2 n k) * ·) (wcat_v a4 a6 a8 k j))
  · exact ((Cert.Lib.HostRows.bcast_1b_ab_apply _ _ n _).trans (Cert.Lib.HostRows.bcast_b_1b_apply _ _ 0 _)).trans
      (bcat_v a5 a7 a9 j)

/-! ## Column blocks and gathered rows -/

/-- Rows of a [50000, 128] table gathered at the edges' indices. -/
def gatheredRows (tbl : FVec Ideal S50000x128 .bf16) (idx : IVec S800000 32) : FVec Ideal S800000x128 .bf16 :=
  Host.gather gather_S50000x128_S800000x1_S800000x128_1_0_n_n_0_1_1128 tbl (broadcastInDim S800000x1 ![0] bcast_S800000_S800000x1_0 idx)

/-- A gathered row is the table's row at the index read signed and clamped. -/
theorem gatheredRows_apply (tbl : FVec Ideal S50000x128 .bf16) (idx : IVec S800000 32) (e : Fin 800000) (j : Fin 128) :
    gatheredRows tbl idx (ix2 e j) = tbl (ix2 (rowOf idx e) j) := by
  unfold gatheredRows
  rw [Cert.Lib.GraphRows.gather_apply,
    Cert.Lib.GraphRows.gatherRows_operandIdx (by decide) gather_S50000x128_S800000x1_S800000x128_1_0_n_n_0_1_1128 rfl rfl rfl rfl rfl rfl rfl]
  unfold rowOf
  rw [Cert.Lib.HostColumns.bcast_a_a1_apply]

/-- Column block 0 of the fused projection, in the narrower float format: lane `j` of dense layer 0. -/
def block_q (a0 : FVec Ideal S50000x128 .f32) (a4 a6 a8 : FVec Ideal S128x128 .f32) (a5 a7 a9 : FVec Ideal S128 .f32) :
    FVec Ideal S50000x128 .bf16 :=
  truncf .bf16 (extractStridedSlice S50000x128 ![0, 0] (fused a0 a4 a6 a8 a5 a7 a9) slices_S50000x384_S50000x128_0_0) bitsLt_bf16_f32

theorem block_q_apply (a0 : FVec Ideal S50000x128 .f32) (a4 a6 a8 : FVec Ideal S128x128 .f32) (a5 a7 a9 : FVec Ideal S128 .f32)
    (n : Fin 50000) (j : Fin 128) :
    block_q a0 a4 a6 a8 a5 a7 a9 (ix2 n j) = dense a0 a4 a5 n j := by
  unfold block_q
  show extractStridedSlice S50000x128 ![0, 0] (fused a0 a4 a6 a8 a5 a7 a9) slices_S50000x384_S50000x128_0_0 (ix2 n j) = _
  rw [extractStridedSlice_apply ![0, 0] _ slices_S50000x384_S50000x128_0_0 (ix2 n j)
    (ix2 n (⟨0 + j.val, by have := j.isLt; omega⟩ : Fin 384))
    (fun a => by match a with
      | ⟨0, _⟩ => exact (Nat.zero_add _).symm
      | ⟨1, _⟩ => rfl)]
  exact fused_q a0 a4 a6 a8 a5 a7 a9 n j

/-- Column block 1 of the fused projection, in the narrower float format: lane `j` of dense layer 1. -/
def block_k (a0 : FVec Ideal S50000x128 .f32) (a4 a6 a8 : FVec Ideal S128x128 .f32) (a5 a7 a9 : FVec Ideal S128 .f32) :
    FVec Ideal S50000x128 .bf16 :=
  truncf .bf16 (extractStridedSlice S50000x128 ![0, 128] (fused a0 a4 a6 a8 a5 a7 a9) slices_S50000x384_S50000x128_0_128) bitsLt_bf16_f32

theorem block_k_apply (a0 : FVec Ideal S50000x128 .f32) (a4 a6 a8 : FVec Ideal S128x128 .f32) (a5 a7 a9 : FVec Ideal S128 .f32)
    (n : Fin 50000) (j : Fin 128) :
    block_k a0 a4 a6 a8 a5 a7 a9 (ix2 n j) = dense a0 a6 a7 n j := by
  unfold block_k
  show extractStridedSlice S50000x128 ![0, 128] (fused a0 a4 a6 a8 a5 a7 a9) slices_S50000x384_S50000x128_0_128 (ix2 n j) = _
  rw [extractStridedSlice_apply ![0, 128] _ slices_S50000x384_S50000x128_0_128 (ix2 n j)
    (ix2 n (⟨128 + j.val, by have := j.isLt; omega⟩ : Fin 384))
    (fun a => by match a with
      | ⟨0, _⟩ => exact (Nat.zero_add _).symm
      | ⟨1, _⟩ => rfl)]
  exact fused_k a0 a4 a6 a8 a5 a7 a9 n j

/-- Column block 2 of the fused projection, in the narrower float format: lane `j` of dense layer 2. -/
def block_v (a0 : FVec Ideal S50000x128 .f32) (a4 a6 a8 : FVec Ideal S128x128 .f32) (a5 a7 a9 : FVec Ideal S128 .f32) :
    FVec Ideal S50000x128 .bf16 :=
  truncf .bf16 (extractStridedSlice S50000x128 ![0, 256] (fused a0 a4 a6 a8 a5 a7 a9) slices_S50000x384_S50000x128_0_256) bitsLt_bf16_f32

theorem block_v_apply (a0 : FVec Ideal S50000x128 .f32) (a4 a6 a8 : FVec Ideal S128x128 .f32) (a5 a7 a9 : FVec Ideal S128 .f32)
    (n : Fin 50000) (j : Fin 128) :
    block_v a0 a4 a6 a8 a5 a7 a9 (ix2 n j) = dense a0 a8 a9 n j := by
  unfold block_v
  show extractStridedSlice S50000x128 ![0, 256] (fused a0 a4 a6 a8 a5 a7 a9) slices_S50000x384_S50000x128_0_256 (ix2 n j) = _
  rw [extractStridedSlice_apply ![0, 256] _ slices_S50000x384_S50000x128_0_256 (ix2 n j)
    (ix2 n (⟨256 + j.val, by have := j.isLt; omega⟩ : Fin 384))
    (fun a => by match a with
      | ⟨0, _⟩ => exact (Nat.zero_add _).symm
      | ⟨1, _⟩ => rfl)]
  exact fused_v a0 a4 a6 a8 a5 a7 a9 n j

/-! ## The arrays at the region's entry -/

section Entry
variable (m : (ℓ : Loc nD τ sig) → Buf (Elt Ideal) ℓ) (c : Dev nD)

/-- The program's arguments on core `c`. -/
abbrev argX : FVec Ideal S50000x128 .f32 := m ((c : Thread nD τ).loc main_arg0)
abbrev argEf : FVec Ideal S800000x128 .f32 := m ((c : Thread nD τ).loc main_arg1)
abbrev argSrc : IVec S800000 32 := m ((c : Thread nD τ).loc main_arg2)
abbrev argDst : IVec S800000 32 := m ((c : Thread nD τ).loc main_arg3)
abbrev argWq : FVec Ideal S128x128 .f32 := m ((c : Thread nD τ).loc main_arg4)
abbrev argBq : FVec Ideal S128 .f32 := m ((c : Thread nD τ).loc main_arg5)
abbrev argWk : FVec Ideal S128x128 .f32 := m ((c : Thread nD τ).loc main_arg6)
abbrev argBk : FVec Ideal S128 .f32 := m ((c : Thread nD τ).loc main_arg7)
abbrev argWv : FVec Ideal S128x128 .f32 := m ((c : Thread nD τ).loc main_arg8)
abbrev argBv : FVec Ideal S128 .f32 := m ((c : Thread nD τ).loc main_arg9)
abbrev argWe : FVec Ideal S128x128 .f32 := m ((c : Thread nD τ).loc main_arg10)
abbrev argBe : FVec Ideal S128 .f32 := m ((c : Thread nD τ).loc main_arg11)

/-- The gathered key rows. -/
theorem entry_keys : (V m c main_v12 : S800000x128.Idx → EReal)
    = gatheredRows (block_k (argX m c) (argWq m c) (argWk m c) (argWv m c) (argBq m c) (argBk m c) (argBv m c)) (argSrc m c) := by
  dsimp only [V, V0]
  simp only [hostOps0, hostOps0_1, hostOps0_2, hostOps0_3, hostOps0_4, List.flatten_cons, List.flatten_nil, List.append_nil, List.cons_append, List.nil_append]
  after_results
  rfl

/-- The gathered query rows. -/
theorem entry_queries : (V m c main_v13 : S800000x128.Idx → EReal)
    = gatheredRows (block_q (argX m c) (argWq m c) (argWk m c) (argWv m c) (argBq m c) (argBk m c) (argBv m c)) (argDst m c) := by
  dsimp only [V, V0]
  simp only [hostOps0, hostOps0_1, hostOps0_2, hostOps0_3, hostOps0_4, List.flatten_cons, List.flatten_nil, List.append_nil, List.cons_append, List.nil_append]
  after_results
  rfl

/-- The gathered value rows. -/
theorem entry_values : (V m c main_v14 : S800000x128.Idx → EReal)
    = gatheredRows (block_v (argX m c) (argWq m c) (argWk m c) (argWv m c) (argBq m c) (argBk m c) (argBv m c)) (argSrc m c) := by
  dsimp only [V, V0]
  simp only [hostOps0, hostOps0_1, hostOps0_2, hostOps0_3, hostOps0_4, List.flatten_cons, List.flatten_nil, List.append_nil, List.cons_append, List.nil_append]
  after_results
  rfl

/-- The edge features, and the edge weight matrix, in the narrower float format: themselves. -/
theorem entry_feats : (V m c main_v16 : S800000x128.Idx → EReal) = argEf m c := by
  dsimp only [V, V0]
  simp only [hostOps0, hostOps0_1, hostOps0_2, hostOps0_3, hostOps0_4, List.flatten_cons, List.flatten_nil, List.append_nil, List.cons_append, List.nil_append]
  after_results
  rfl
theorem entry_weights : (V m c main_v15 : S128x128.Idx → EReal) = argWe m c := by
  dsimp only [V, V0]
  simp only [hostOps0, hostOps0_1, hostOps0_2, hostOps0_3, hostOps0_4, List.flatten_cons, List.flatten_nil, List.append_nil, List.cons_append, List.nil_append]
  after_results
  rfl

/-- The two selector tables. -/
theorem entry_sel : (V m c main_cst : S128x8.Idx → EReal) = fun i => Ideal.ofBits .f32 (lit0 (S128x8.rowMajor i)) := by
  dsimp only [V, V0]
  simp only [hostOps0, hostOps0_1, hostOps0_2, hostOps0_3, hostOps0_4, List.flatten_cons, List.flatten_nil, List.append_nil, List.cons_append, List.nil_append]
  after_results
  rfl
theorem entry_selT : (V m c main_cst_0 : S8x128.Idx → EReal) = fun i => Ideal.ofBits .f32 (lit1 (S8x128.rowMajor i)) := by
  dsimp only [V, V0]
  simp only [hostOps0, hostOps0_1, hostOps0_2, hostOps0_3, hostOps0_4, List.flatten_cons, List.flatten_nil, List.append_nil, List.cons_append, List.nil_append]
  after_results
  rfl

end Entry

end Cert.KernelIdeal.EdgeValue

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.EdgeSelectors.lean ====
/-
  The two 0/1 head-selector matrices the kernel multiplies by, and what the products are on the extended reals.

  M [128, 8] holds 1 at (j, h) when lane j belongs to head h (j / 16 = h) and 0 elsewhere; MT [8, 128] is its transpose.
  Both arrive as literal tables of 1024 words. A row of scores times M is, per head, the sum of the head's 16 lanes: the
  other 112 products are x · 0 = 0, which holds for every extended real, infinite ones included. A row of per-head
  weights times MT is, per lane, the weight of the lane's head.
-/
import proofs.«155304_j53326313947334_2_alg».proof.KernelIdeal
import proofs.«155304_j53326313947334_2_alg».proof.Proof.EdgeSpec
import proofs.«155304_j53326313947334_2_alg».proof.Proof.LibSumBlocks

noncomputable section

namespace Cert.KernelIdeal.Selectors

open Idealize.ShloMosaic Idealize.ShloMosaic.ValueIdx Cert.KernelIdeal Cert.EdgeSpec

/-- The word of 1.0 denotes the real 1. -/
theorem one_word : Ideal.ofBits .f32 0x3F800000#32 = 1 := by
  simp [Ideal.ofBits, Ideal.ieee, -EReal.coe_mul]; norm_num

/-- The word of +0.0 denotes 0. -/
theorem zero_word : Ideal.ofBits .f32 0x00000000#32 = 0 := by
  simp [Ideal.ofBits, Ideal.ieee]

/-- The first table, position by position: flat position 8j + h holds the word of 1.0 exactly when j / 16 = h. -/
theorem lit0_eq : ∀ n : Fin 1024, lit0 n = if (n.val / 8) / 16 = n.val % 8 then 0x3F800000#32 else 0x00000000#32 := by
  decide +kernel

/-- The second table: flat position 128h + j holds the word of 1.0 exactly when j / 16 = h. -/
theorem lit1_eq : ∀ n : Fin 1024, lit1 n = if (n.val % 128) / 16 = n.val / 128 then 0x3F800000#32 else 0x00000000#32 := by
  decide +kernel

/-- The indicator of "lane j is in head h" as an extended real. -/
def sel (j : Fin 128) (h : Fin 8) : EReal := if headOf j = h then 1 else 0

/-- A position of the first table that is (j, h) in row-major order holds the indicator. -/
theorem selM_word (n : Fin 1024) (j : Fin 128) (h : Fin 8) (hn : n.val = j.val * 8 + h.val) :
    Ideal.ofBits .f32 (lit0 n) = sel j h := by
  have hj := j.isLt
  have hh := h.isLt
  have h8 : n.val / 8 = j.val := by omega
  have h7 : n.val % 8 = h.val := by omega
  rw [lit0_eq, h8, h7]
  unfold sel headOf
  by_cases hc : j.val / 16 = h.val
  · rw [if_pos hc, if_pos (Fin.ext hc)]; exact one_word
  · rw [if_neg hc, if_neg (fun e => hc (congrArg Fin.val e))]; exact zero_word

/-- M at (j, h). -/
theorem selM_apply (j : Fin 128) (h : Fin 8) :
    Ideal.ofBits .f32 (lit0 (S128x8.rowMajor (ix2 j h))) = sel j h :=
  selM_word (S128x8.rowMajor (ix2 j h)) j h (Shape.rowMajor_val_two (d := ![128, 8]) (ix2 j h))

/-- A position of the second table that is (h, j) in row-major order holds the indicator. -/
theorem selT_word (n : Fin 1024) (h : Fin 8) (j : Fin 128) (hn : n.val = h.val * 128 + j.val) :
    Ideal.ofBits .f32 (lit1 n) = sel j h := by
  have hj := j.isLt
  have hh := h.isLt
  have h8 : n.val % 128 = j.val := by omega
  have h7 : n.val / 128 = h.val := by omega
  rw [lit1_eq, h8, h7]
  unfold sel headOf
  by_cases hc : j.val / 16 = h.val
  · rw [if_pos hc, if_pos (Fin.ext hc)]; exact one_word
  · rw [if_neg hc, if_neg (fun e => hc (congrArg Fin.val e))]; exact zero_word

/-- MT at (h, j). -/
theorem selT_apply (h : Fin 8) (j : Fin 128) :
    Ideal.ofBits .f32 (lit1 (S8x128.rowMajor (ix2 h j))) = sel j h :=
  selT_word (S8x128.rowMajor (ix2 h j)) h j (Shape.rowMajor_val_two (d := ![8, 128]) (ix2 h j))

/-- A row times M: the sum over the 128 lanes of `f j · [j in head h]` is the sum over the head's 16 lanes. -/
theorem sum_sel_lanes (f : Fin 128 → EReal) (h : Fin 8) :
    ∑ j : Fin 128, f j * sel j h = ∑ d : Fin 16, f (lane h d) := by
  rw [SumBlocks.sum_eq (m := 8) (n := 16) (N := 128) rfl (fun j => f j * sel j h)]
  rw [Finset.sum_eq_single h]
  · refine Finset.sum_congr rfl fun d _ => ?_
    have e : (SumBlocks.idx (m := 8) (n := 16) (N := 128) rfl h d) = lane h d := Fin.ext rfl
    rw [e]
    unfold sel
    rw [if_pos (headOf_lane h d), mul_one]
  · intro h' _ hne
    refine Finset.sum_eq_zero fun d _ => ?_
    have e : (SumBlocks.idx (m := 8) (n := 16) (N := 128) rfl h' d) = lane h' d := Fin.ext rfl
    rw [e]
    unfold sel
    rw [if_neg (by rw [headOf_lane]; exact hne), mul_zero]
  · intro hh; exact absurd (Finset.mem_univ h) hh

/-- A head vector times MT: the sum over the 8 heads of `g h · [j in head h]` is `g` at the lane's head. -/
theorem sum_sel_heads (g : Fin 8 → EReal) (j : Fin 128) :
    ∑ h : Fin 8, g h * sel j h = g (headOf j) := by
  rw [Finset.sum_eq_single (headOf j)]
  · unfold sel; rw [if_pos rfl, mul_one]
  · intro h _ hne
    unfold sel; rw [if_neg (fun e => hne e.symm), mul_zero]
  · intro hh; exact absurd (Finset.mem_univ _) hh

end Cert.KernelIdeal.Selectors

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.EdgeTile.lean ====
/-
  The edge kernel's arithmetic on one tile, read at an index, on the extended reals.

  With the tile's rows of the gathered keys k, queries q and values v, of the edge features f, the edge matrix W and its
  bias b, for row r of the tile:

    score (r, j)   = clamp (k (r, j) · q (r, j) · ¼) · (Σ_i f (r, i) · W (i, j) + b j)
    weight (r, h)  = exp (clamp (Σ_d score (r, 16h + d)))        the product with the 0/1 selector keeps head h's lanes
    wvalue (r, j)  = v (r, j) · weight (r, j / 16)               the product with its transpose reads lane j's head

  A matrix product into the zero accumulator is the plain sum of products; a change of float format and a reshape to
  the same shape are the identity.
-/
import proofs.«155304_j53326313947334_2_alg».proof.Proof.Gen.KernelIdeal.Skeleton
import proofs.«155304_j53326313947334_2_alg».proof.Proof.EdgeSelectors
import proofs.«155304_j53326313947334_2_alg».proof.Proof.LibPlainMatmul
import Idealize.ShloMosaic.Lib.Pipeline.Value
import Idealize.ShloMosaic.Lib.ValueIdx
import Idealize.ShloMosaic.PureOps.Ideal

noncomputable section

namespace Cert.KernelIdeal.EdgeValue

open Idealize.ShloMosaic Idealize.ShloMosaic.ValueIdx
open Cert.KernelIdeal Cert.KernelIdeal.Gen Cert.EdgeSpec Cert.KernelIdeal.Selectors

/-- The bias laid along a unit row and repeated down the tile's rows reads the bias at the lane. -/
theorem biasRows_apply (v13 : Vec Ideal S128 .f32) (r : Fin 6400) (j : Fin 128) :
    broadcastTo S6400x128 (shapeCast S1x128 v13 shapeCasts_S128_S1x128) broadcasts_S1x128_S6400x128 (ix2 r j) = v13 (ix1 j) := by
  rw [broadcastTo_apply _ broadcasts_S1x128_S6400x128 (ix2 r j) (ix2 (0 : Fin 1) j)
    (fun a => by match a with
      | ⟨0, _⟩ => rfl
      | ⟨1, _⟩ => rfl)]
  rw [shapeCast_addUnit_apply (n := 1) ![128]]
  exact congrArg v13 (funext fun a => by match a with | ⟨0, _⟩ => rfl)

section
variable (v0 v2 v5 v8 : Vec Ideal S6400x128 .bf16) (v11 : Vec Ideal S128x128 .bf16) (v13 : Vec Ideal S128 .f32)

/-- The score at row `r`, lane `j` of the tile. -/
theorem score_tile (r : Fin 6400) (j : Fin 128) :
    k0_pay4 v0 v2 v5 v11 v13 (ix2 r j)
      = clamp5 (v2 (ix2 r j) * v5 (ix2 r j) * Ideal.ofBits .f32 0x3E800000#32)
          * ((∑ k : Fin 128, v0 (ix2 r k) * v11 (ix2 k j)) + v13 (ix1 j)) := by
  unfold k0_pay4 clamp5
  simp only [shapeCast_self]
  rw [← Cert.Lib.PlainMatmul.matmul_zero_apply (φ₁ := .bf16) (φ₂ := .bf16) dot_S6400x128_S128x128_S6400x128_1_0_0_1_n_n rfl rfl rfl rfl rfl rfl none v0 v11 r j,
    ← biasRows_apply v13 r j]
  rfl

/-- The clamped head sums, for any right factor `v14`: the clamp of the row of scores times `v14`'s column. -/
theorem headSum_tile (v14 : Vec Ideal S128x8 .f32) (r : Fin 6400) (h : Fin 8) :
    k0_pay5 v0 v2 v5 v11 v13 v14 (ix2 r h)
      = clamp5 (∑ j : Fin 128, k0_pay4 v0 v2 v5 v11 v13 (ix2 r j) * v14 (ix2 j h)) :=
  congrArg clamp5 (Cert.Lib.PlainMatmul.matmul_zero_apply (φ₁ := .f32) (φ₂ := .f32) dot_S6400x128_S128x8_S6400x8_1_0_0_1_n_n rfl rfl rfl rfl rfl rfl none (k0_pay4 v0 v2 v5 v11 v13) v14 r h)

/-- The first selector table as a matrix. -/
def selTab : Vec Ideal S128x8 .f32 := fun i => Ideal.ofBits .f32 (lit0 (S128x8.rowMajor i))
/-- The second, its transpose. -/
def selTabT : Vec Ideal S8x128 .f32 := fun i => Ideal.ofBits .f32 (lit1 (S8x128.rowMajor i))

/-- Against the selector the head sum keeps the head's 16 lanes. -/
theorem headSum_sel (r : Fin 6400) (h : Fin 8) :
    k0_pay5 v0 v2 v5 v11 v13 selTab (ix2 r h)
      = clamp5 (∑ d : Fin 16, k0_pay4 v0 v2 v5 v11 v13 (ix2 r (lane h d))) := by
  rw [headSum_tile]
  refine congrArg clamp5 ?_
  have e : ∀ j : Fin 128, selTab (ix2 j h) = sel j h := fun j => selM_apply j h
  simp only [e]
  exact sum_sel_lanes (fun j => k0_pay4 v0 v2 v5 v11 v13 (ix2 r j)) h

/-- The per-head weight: the exponential of the clamped head sum. -/
theorem weight_tile (r : Fin 6400) (h : Fin 8) :
    k0_pay1 (k0_pay5 v0 v2 v5 v11 v13 selTab) (ix2 r h)
      = Ideal.exp (clamp5 (∑ d : Fin 16, k0_pay4 v0 v2 v5 v11 v13 (ix2 r (lane h d)))) :=
  congrArg Ideal.exp (headSum_sel v0 v2 v5 v11 v13 r h)

/-- The weighted value row: the value times the weight of the lane's head. -/
theorem wvalue_tile (r : Fin 6400) (j : Fin 128) :
    k0_pay2 (k0_pay3 v8) selTabT (k0_pay5 v0 v2 v5 v11 v13 selTab) (ix2 r j)
      = v8 (ix2 r j) * Ideal.exp (clamp5 (∑ d : Fin 16, k0_pay4 v0 v2 v5 v11 v13 (ix2 r (lane (headOf j) d)))) := by
  have hv : k0_pay3 v8 = v8 := by unfold k0_pay3; simp only [shapeCast_self]; rfl
  have hm := Cert.Lib.PlainMatmul.matmul_zero_apply (φ₁ := .f32) (φ₂ := .f32) dot_S6400x8_S8x128_S6400x128_1_0_0_1_n_n rfl rfl rfl rfl rfl rfl none (k0_pay1 (k0_pay5 v0 v2 v5 v11 v13 selTab)) selTabT r j
  have e : ∀ h : Fin 8, selTabT (ix2 h j) = sel j h := fun h => selT_apply h j
  simp only [e] at hm
  rw [sum_sel_heads (fun h => k0_pay1 (k0_pay5 v0 v2 v5 v11 v13 selTab) (ix2 r h)) j, weight_tile] at hm
  rw [hv]
  exact congrArg (v8 (ix2 r j) * ·) hm

end

end Cert.KernelIdeal.EdgeValue

end
-- ==== Proof.EdgeFinal.lean ====
/-
  From tiles to arrays: what the edge kernel's three result arrays hold after its 125 tiles, on the extended reals.

  Tile t stages rows 6400t … 6400t + 6399 of the four per-edge arrays and the whole of the weight matrix, the bias and
  the two selectors, and writes back the same rows of the three results. A result row depends on its own input row
  only, so each result array is one row-wise function of the staged arrays, and the 125 row blocks cover it.
-/
import proofs.«155304_j53326313947334_2_alg».proof.Proof.EdgeArrays
import proofs.«155304_j53326313947334_2_alg».proof.Proof.EdgeTile

set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Edge Cert.EdgeSpec Cert.KernelIdeal.Selectors

theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the grid -/

/-- Window 0 sits at row block `t`, column block 0. -/
theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1 sits at row block `t`, column block 0. -/
theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 2 sits at row block `t`, column block 0. -/
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 3 sits at row block `t`, column block 0. -/
theorem idx_w3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Window 8 sits at row block `t`, column block 0. -/
theorem idx_w8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Window 9 sits at row block `t`, column block 0. -/
theorem idx_w9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Window 10 sits at row block `t`, column block 0. -/
theorem idx_w10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Window 4 is resident: block (0, 0) at every tile. -/
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 6 is resident: block (0, 0) at every tile. -/
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7 is resident: block (0, 0) at every tile. -/
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 5 is resident: block 0 at every tile. -/
theorem idx_w5 : ∀ t : Fin cfg0.N, win0_5.index t (0 : Fin 1) = 0 :=
  (by decide +kernel : ∀ t : Fin grid0.N, win0_5.index t (0 : Fin 1) = 0)

theorem tiles_lt (t : Fin cfg0.N) (r : Fin 6400) : t.val * 6400 + r.val < 800000 := by
  have h : t.val < 125 := by have := t.isLt; have e : cfg0.N = 125 := N_0; omega
  have := r.isLt; omega

/-- Row `r` of tile `t` is edge `6400t + r`. -/
def edgeOf (t : Fin cfg0.N) (r : Fin 6400) : Fin 800000 := ⟨t.val * 6400 + r.val, tiles_lt t r⟩

section
variable (m : (ℓ : Loc nD τ sig) → Buf (Elt Ideal) ℓ) (c : Dev nD)

/-! ## The input blocks, read where the tile's rows say -/

theorem rows_w0 (t : Fin cfg0.N) (r : Fin 6400) (k : Fin 128) :
    (blockAt m c 0 t : S6400x128.Idx → EReal) (ix2 r k) = (V m c main_v16 : S800000x128.Idx → EReal) (ix2 (edgeOf t r) k) := by
  unfold blockAt
  show (V m c main_v16 : S800000x128.Idx → EReal) (((cfg0.win 0).blk t).view.emb (ix2 r k)) = _
  refine congrArg _ (funext fun a => Fin.ext ?_)
  obtain ⟨e0, e1⟩ := idx_w0 t
  match a with
  | ⟨0, _⟩ => show win0_0.index t (0 : Fin 2) * 6400 + 1 * r.val = t.val * 6400 + r.val; omega
  | ⟨1, _⟩ => show win0_0.index t (1 : Fin 2) * 128 + 1 * k.val = k.val; omega

theorem rows_w1 (t : Fin cfg0.N) (r : Fin 6400) (k : Fin 128) :
    (blockAt m c 1 t : S6400x128.Idx → EReal) (ix2 r k) = (V m c main_v12 : S800000x128.Idx → EReal) (ix2 (edgeOf t r) k) := by
  unfold blockAt
  show (V m c main_v12 : S800000x128.Idx → EReal) (((cfg0.win 1).blk t).view.emb (ix2 r k)) = _
  refine congrArg _ (funext fun a => Fin.ext ?_)
  obtain ⟨e0, e1⟩ := idx_w1 t
  match a with
  | ⟨0, _⟩ => show win0_1.index t (0 : Fin 2) * 6400 + 1 * r.val = t.val * 6400 + r.val; omega
  | ⟨1, _⟩ => show win0_1.index t (1 : Fin 2) * 128 + 1 * k.val = k.val; omega

theorem rows_w2 (t : Fin cfg0.N) (r : Fin 6400) (k : Fin 128) :
    (blockAt m c 2 t : S6400x128.Idx → EReal) (ix2 r k) = (V m c main_v13 : S800000x128.Idx → EReal) (ix2 (edgeOf t r) k) := by
  unfold blockAt
  show (V m c main_v13 : S800000x128.Idx → EReal) (((cfg0.win 2).blk t).view.emb (ix2 r k)) = _
  refine congrArg _ (funext fun a => Fin.ext ?_)
  obtain ⟨e0, e1⟩ := idx_w2 t
  match a with
  | ⟨0, _⟩ => show win0_2.index t (0 : Fin 2) * 6400 + 1 * r.val = t.val * 6400 + r.val; omega
  | ⟨1, _⟩ => show win0_2.index t (1 : Fin 2) * 128 + 1 * k.val = k.val; omega

theorem rows_w3 (t : Fin cfg0.N) (r : Fin 6400) (k : Fin 128) :
    (blockAt m c 3 t : S6400x128.Idx → EReal) (ix2 r k) = (V m c main_v14 : S800000x128.Idx → EReal) (ix2 (edgeOf t r) k) := by
  unfold blockAt
  show (V m c main_v14 : S800000x128.Idx → EReal) (((cfg0.win 3).blk t).view.emb (ix2 r k)) = _
  refine congrArg _ (funext fun a => Fin.ext ?_)
  obtain ⟨e0, e1⟩ := idx_w3 t
  match a with
  | ⟨0, _⟩ => show win0_3.index t (0 : Fin 2) * 6400 + 1 * r.val = t.val * 6400 + r.val; omega
  | ⟨1, _⟩ => show win0_3.index t (1 : Fin 2) * 128 + 1 * k.val = k.val; omega

theorem whole_w4 (t : Fin cfg0.N) (k j : Fin 128) :
    (blockAt m c 4 t : S128x128.Idx → EReal) (ix2 k j) = (V m c main_v15 : S128x128.Idx → EReal) (ix2 k j) := by
  unfold blockAt
  show (V m c main_v15 : S128x128.Idx → EReal) (((cfg0.win 4).blk t).view.emb (ix2 k j)) = _
  refine congrArg _ (funext fun a => Fin.ext ?_)
  obtain ⟨e0, e1⟩ := idx_w4 t
  match a with
  | ⟨0, _⟩ => show win0_4.index t (0 : Fin 2) * 128 + 1 * k.val = k.val; omega
  | ⟨1, _⟩ => show win0_4.index t (1 : Fin 2) * 128 + 1 * j.val = j.val; omega

theorem whole_w5 (t : Fin cfg0.N) (j : Fin 128) :
    (blockAt m c 5 t : S128.Idx → EReal) (ix1 j) = (V m c main_arg11 : S128.Idx → EReal) (ix1 j) := by
  unfold blockAt
  show (V m c main_arg11 : S128.Idx → EReal) (((cfg0.win 5).blk t).view.emb (ix1 j)) = _
  refine congrArg _ (funext fun a => Fin.ext ?_)
  have e0 := idx_w5 t
  match a with
  | ⟨0, _⟩ => show win0_5.index t (0 : Fin 1) * 128 + 1 * j.val = j.val; omega

theorem whole_w6 (t : Fin cfg0.N) : (blockAt m c 6 t : S128x8.Idx → EReal) = (V m c main_cst : S128x8.Idx → EReal) := by
  funext y
  obtain ⟨j, h, rfl⟩ : ∃ (j : Fin 128) (h : Fin 8), y = ix2 j h := ⟨y 0, y 1, eq_ix2 y⟩
  unfold blockAt
  show (V m c main_cst : S128x8.Idx → EReal) (((cfg0.win 6).blk t).view.emb (ix2 j h)) = _
  refine congrArg _ (funext fun a => Fin.ext ?_)
  obtain ⟨e0, e1⟩ := idx_w6 t
  match a with
  | ⟨0, _⟩ => show win0_6.index t (0 : Fin 2) * 128 + 1 * j.val = j.val; omega
  | ⟨1, _⟩ => show win0_6.index t (1 : Fin 2) * 8 + 1 * h.val = h.val; omega

theorem whole_w7 (t : Fin cfg0.N) : (blockAt m c 7 t : S8x128.Idx → EReal) = (V m c main_cst_0 : S8x128.Idx → EReal) := by
  funext y
  obtain ⟨h, j, rfl⟩ : ∃ (h : Fin 8) (j : Fin 128), y = ix2 h j := ⟨y 0, y 1, eq_ix2 y⟩
  unfold blockAt
  show (V m c main_cst_0 : S8x128.Idx → EReal) (((cfg0.win 7).blk t).view.emb (ix2 h j)) = _
  refine congrArg _ (funext fun a => Fin.ext ?_)
  obtain ⟨e0, e1⟩ := idx_w7 t
  match a with
  | ⟨0, _⟩ => show win0_7.index t (0 : Fin 2) * 8 + 1 * h.val = h.val; omega
  | ⟨1, _⟩ => show win0_7.index t (1 : Fin 2) * 128 + 1 * j.val = j.val; omega

end

/-! ## The three results as row-wise functions of the staged arrays -/

section
variable (ef ks qd vs : S800000x128.Idx → EReal) (we : S128x128.Idx → EReal) (be : S128.Idx → EReal)

/-- The score of edge `e`, lane `j`, from the staged arrays. -/
def scoreRow (e : Fin 800000) (j : Fin 128) : EReal :=
  clamp5 (ks (ix2 e j) * qd (ix2 e j) * Ideal.ofBits .f32 0x3E800000#32)
    * ((∑ k : Fin 128, ef (ix2 e k) * we (ix2 k j)) + be (ix1 j))
/-- The weight of edge `e` in head `h`. -/
def weightRow (e : Fin 800000) (h : Fin 8) : EReal :=
  Ideal.exp (clamp5 (∑ d : Fin 16, scoreRow ef ks qd we be e (lane h d)))
/-- The weighted value of edge `e` at lane `j`. -/
def wvalueRow (e : Fin 800000) (j : Fin 128) : EReal :=
  vs (ix2 e j) * weightRow ef ks qd we be e (headOf j)

def scoreArr : S800000x128.Idx → EReal := fun i => scoreRow ef ks qd we be (i 0) (i 1)
def wvalueArr : S800000x128.Idx → EReal := fun i => wvalueRow ef ks qd vs we be (i 0) (i 1)
def weightArr : S800000x8.Idx → EReal := fun i => weightRow ef ks qd we be (i 0) (i 1)
end

section
variable (m : (ℓ : Loc nD τ sig) → Buf (Elt Ideal) ℓ) (c : Dev nD)

local notation "EF" => (V m c main_v16 : S800000x128.Idx → EReal)
local notation "KS" => (V m c main_v12 : S800000x128.Idx → EReal)
local notation "QD" => (V m c main_v13 : S800000x128.Idx → EReal)
local notation "VS" => (V m c main_v14 : S800000x128.Idx → EReal)
local notation "WE" => (V m c main_v15 : S128x128.Idx → EReal)
local notation "BE" => (V m c main_arg11 : S128.Idx → EReal)

/-- The tile's score payload at row `r`, lane `j` is the score of edge `6400t + r`. -/
theorem tile_score (t : Fin cfg0.N) (r : Fin 6400) (j : Fin 128) :
    k0_pay4 (blockAt m c 0 t) (blockAt m c 1 t) (blockAt m c 2 t) (blockAt m c 4 t) (blockAt m c 5 t) (ix2 r j)
      = scoreRow EF KS QD WE BE (edgeOf t r) j := by
  refine (score_tile (blockAt m c 0 t) (blockAt m c 1 t) (blockAt m c 2 t) (blockAt m c 4 t) (blockAt m c 5 t) r j).trans ?_
  unfold scoreRow
  rw [rows_w1 m c t r j, rows_w2 m c t r j, whole_w5 m c t j]
  refine congrArg (fun z => _ * (z + _)) (Finset.sum_congr rfl fun k _ => ?_)
  rw [rows_w0 m c t r k, whole_w4 m c t k j]

/-- The resident selector blocks are the two literal tables. -/
theorem sel_block (t : Fin cfg0.N) : (blockAt m c 6 t : Vec Ideal S128x8 .f32) = selTab :=
  (whole_w6 m c t).trans (entry_sel m c)
theorem selT_block (t : Fin cfg0.N) : (blockAt m c 7 t : Vec Ideal S8x128 .f32) = selTabT :=
  (whole_w7 m c t).trans (entry_selT m c)

/-- The tile's weight payload at row `r`, head `h` is the weight of edge `6400t + r`. -/
theorem tile_weight (t : Fin cfg0.N) (r : Fin 6400) (h : Fin 8) :
    k0_pay1 (k0_pay5 (blockAt m c 0 t) (blockAt m c 1 t) (blockAt m c 2 t) (blockAt m c 4 t) (blockAt m c 5 t) (blockAt m c 6 t)) (ix2 r h)
      = weightRow EF KS QD WE BE (edgeOf t r) h :=
  (congrArg (fun z : Vec Ideal S128x8 .f32 => k0_pay1 (k0_pay5 (blockAt m c 0 t) (blockAt m c 1 t) (blockAt m c 2 t) (blockAt m c 4 t) (blockAt m c 5 t) z) (ix2 r h)) (sel_block m c t)).trans
    ((weight_tile (blockAt m c 0 t) (blockAt m c 1 t) (blockAt m c 2 t) (blockAt m c 4 t) (blockAt m c 5 t) r h).trans
      (congrArg (fun z => Ideal.exp (clamp5 z)) (Finset.sum_congr rfl fun d _ => tile_score m c t r (lane h d))))

/-- The tile's weighted-value payload at row `r`, lane `j` is the weighted value of edge `6400t + r`. -/
theorem tile_wvalue (t : Fin cfg0.N) (r : Fin 6400) (j : Fin 128) :
    k0_pay2 (k0_pay3 (blockAt m c 3 t)) (blockAt m c 7 t) (k0_pay5 (blockAt m c 0 t) (blockAt m c 1 t) (blockAt m c 2 t) (blockAt m c 4 t) (blockAt m c 5 t) (blockAt m c 6 t)) (ix2 r j)
      = wvalueRow EF KS QD VS WE BE (edgeOf t r) j := by
  refine (congrArg (fun z : Vec Ideal S8x128 .f32 => k0_pay2 (k0_pay3 (blockAt m c 3 t)) z (k0_pay5 (blockAt m c 0 t) (blockAt m c 1 t) (blockAt m c 2 t) (blockAt m c 4 t) (blockAt m c 5 t) (blockAt m c 6 t)) (ix2 r j)) (selT_block m c t)).trans ?_
  refine (congrArg (fun z : Vec Ideal S128x8 .f32 => k0_pay2 (k0_pay3 (blockAt m c 3 t)) selTabT (k0_pay5 (blockAt m c 0 t) (blockAt m c 1 t) (blockAt m c 2 t) (blockAt m c 4 t) (blockAt m c 5 t) z) (ix2 r j)) (sel_block m c t)).trans ?_
  refine (wvalue_tile (blockAt m c 0 t) (blockAt m c 1 t) (blockAt m c 2 t) (blockAt m c 3 t) (blockAt m c 4 t) (blockAt m c 5 t) r j).trans ?_
  unfold wvalueRow weightRow
  rw [rows_w3 m c t r j]
  exact congrArg (fun z => _ * Ideal.exp (clamp5 z)) (Finset.sum_congr rfl fun d _ => tile_score m c t r (lane (headOf j) d))

/-! ## What each tile writes back -/

theorem flushed_score (t : Fin cfg0.N) :
    (dats m 0 c).flushed 8 t = ((cfg0.win 8).blk t).view.read (Elt Ideal) (scoreArr EF KS QD WE BE) := by
  show (cfg0.win 8).cut (grid0.coords t) ((dats m 0 c).after 8 t) = _
  rw [after_w8]
  unfold scoreOut
  rw [View.canon_unit_zero hz2]
  simp only [View.ld_unit_zero (S := S6400x128) hz2, View.ld_unit_zero (S := S128x128) hz2, View.ld_unit_zero (S := S128) hz1, View.ld_unit_zero (S := S128x8) hz2, View.ld_unit_zero (S := S8x128) hz2]
  funext y
  obtain ⟨r, j, rfl⟩ : ∃ (r : Fin 6400) (j : Fin 128), y = ix2 r j := ⟨y 0, y 1, eq_ix2 y⟩
  refine (tile_score m c t r j).trans ?_
  show scoreRow EF KS QD WE BE (edgeOf t r) j = scoreArr EF KS QD WE BE (((cfg0.win 8).blk t).view.emb (ix2 r j))
  have he : ((cfg0.win 8).blk t).view.emb (ix2 r j) = ix2 (edgeOf t r) j := by
    funext a; apply Fin.ext
    obtain ⟨e0, e1⟩ := idx_w8 t
    match a with
    | ⟨0, _⟩ => show win0_8.index t (0 : Fin 2) * 6400 + 1 * r.val = t.val * 6400 + r.val; omega
    | ⟨1, _⟩ => show win0_8.index t (1 : Fin 2) * 128 + 1 * j.val = j.val; omega
  rw [he]; rfl

theorem flushed_wvalue (t : Fin cfg0.N) :
    (dats m 0 c).flushed 9 t = ((cfg0.win 9).blk t).view.read (Elt Ideal) (wvalueArr EF KS QD VS WE BE) := by
  show (cfg0.win 9).cut (grid0.coords t) ((dats m 0 c).after 9 t) = _
  rw [after_w9]
  unfold valueOut headSums
  rw [View.canon_unit_zero hz2]
  simp only [View.ld_unit_zero (S := S6400x128) hz2, View.ld_unit_zero (S := S128x128) hz2, View.ld_unit_zero (S := S128) hz1, View.ld_unit_zero (S := S128x8) hz2, View.ld_unit_zero (S := S8x128) hz2]
  funext y
  obtain ⟨r, j, rfl⟩ : ∃ (r : Fin 6400) (j : Fin 128), y = ix2 r j := ⟨y 0, y 1, eq_ix2 y⟩
  refine (tile_wvalue m c t r j).trans ?_
  show wvalueRow EF KS QD VS WE BE (edgeOf t r) j = wvalueArr EF KS QD VS WE BE (((cfg0.win 9).blk t).view.emb (ix2 r j))
  have he : ((cfg0.win 9).blk t).view.emb (ix2 r j) = ix2 (edgeOf t r) j := by
    funext a; apply Fin.ext
    obtain ⟨e0, e1⟩ := idx_w9 t
    match a with
    | ⟨0, _⟩ => show win0_9.index t (0 : Fin 2) * 6400 + 1 * r.val = t.val * 6400 + r.val; omega
    | ⟨1, _⟩ => show win0_9.index t (1 : Fin 2) * 128 + 1 * j.val = j.val; omega
  rw [he]; rfl

theorem flushed_weight (t : Fin cfg0.N) :
    (dats m 0 c).flushed 10 t = ((cfg0.win 10).blk t).view.read (Elt Ideal) (weightArr EF KS QD WE BE) := by
  show (cfg0.win 10).cut (grid0.coords t) ((dats m 0 c).after 10 t) = _
  rw [after_w10]
  unfold weightOut headSums
  rw [View.canon_unit_zero hz2]
  simp only [View.ld_unit_zero (S := S6400x128) hz2, View.ld_unit_zero (S := S128x128) hz2, View.ld_unit_zero (S := S128) hz1, View.ld_unit_zero (S := S128x8) hz2, View.ld_unit_zero (S := S8x128) hz2]
  funext y
  obtain ⟨r, h, rfl⟩ : ∃ (r : Fin 6400) (h : Fin 8), y = ix2 r h := ⟨y 0, y 1, eq_ix2 y⟩
  refine (tile_weight m c t r h).trans ?_
  show weightRow EF KS QD WE BE (edgeOf t r) h = weightArr EF KS QD WE BE (((cfg0.win 10).blk t).view.emb (ix2 r h))
  have he : ((cfg0.win 10).blk t).view.emb (ix2 r h) = ix2 (edgeOf t r) h := by
    funext a; apply Fin.ext
    obtain ⟨e0, e1⟩ := idx_w10 t
    match a with
    | ⟨0, _⟩ => show win0_10.index t (0 : Fin 2) * 6400 + 1 * r.val = t.val * 6400 + r.val; omega
    | ⟨1, _⟩ => show win0_10.index t (1 : Fin 2) * 8 + 1 * h.val = h.val; omega
  rw [he]; rfl

/-! ## The tiles cover the arrays -/

/-- An index of result 0 is in tile `t`'s block iff each coordinate is in the block's range on its axis. -/
theorem mem_blk8 (t : Fin cfg0.N) (i : S800000x128.Idx) :
    i ∈ ((cfg0.win 8).blk t).view.set ↔ ∀ a : Fin 2, win0_8.index t a * S6400x128.size a ≤ (i a).val ∧ (i a).val < win0_8.index t a * S6400x128.size a + S6400x128.size a := by
  show i ∈ ((View.whole main_v17_0).slice (win0_8.rect t)).set ↔ _
  rw [View.set_slice_whole, Rect.mem_set_unit]
  exact Iff.rfl

/-- Every index is in the block of the tile its row falls in. -/
theorem cover8 (i : S800000x128.Idx) : ∃ t : Fin cfg0.N, (cfg0.win 8).flush t = true ∧ i ∈ ((cfg0.win 8).blk t).view.set := by
  have hi0 : (i 0).val < 800000 := (i 0).isLt
  have hi1 : (i 1).val < 128 := (i 1).isLt
  have hN : cfg0.N = 125 := N_0
  refine ⟨⟨(i 0).val / 6400, by rw [hN]; omega⟩, flush0_8 _, ?_⟩
  rw [mem_blk8]
  obtain ⟨e0, e1⟩ := idx_w8 ⟨(i 0).val / 6400, by rw [hN]; omega⟩
  intro a
  match a with
  | ⟨0, _⟩ =>
    show win0_8.index _ (0 : Fin 2) * 6400 ≤ (i 0).val ∧ (i 0).val < win0_8.index _ (0 : Fin 2) * 6400 + 6400
    rw [e0]; show (i 0).val / 6400 * 6400 ≤ (i 0).val ∧ (i 0).val < (i 0).val / 6400 * 6400 + 6400; omega
  | ⟨1, _⟩ =>
    show win0_8.index _ (1 : Fin 2) * 128 ≤ (i 1).val ∧ (i 1).val < win0_8.index _ (1 : Fin 2) * 128 + 128
    rw [e1]; omega

/-- An index of result 1 is in tile `t`'s block iff each coordinate is in the block's range on its axis. -/
theorem mem_blk9 (t : Fin cfg0.N) (i : S800000x128.Idx) :
    i ∈ ((cfg0.win 9).blk t).view.set ↔ ∀ a : Fin 2, win0_9.index t a * S6400x128.size a ≤ (i a).val ∧ (i a).val < win0_9.index t a * S6400x128.size a + S6400x128.size a := by
  show i ∈ ((View.whole main_v17_1).slice (win0_9.rect t)).set ↔ _
  rw [View.set_slice_whole, Rect.mem_set_unit]
  exact Iff.rfl

/-- Every index is in the block of the tile its row falls in. -/
theorem cover9 (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  have hN : cfg0.N = 125 := N_0
  refine ⟨⟨(i 0).val / 6400, by rw [hN]; omega⟩, flush0_9 _, ?_⟩
  rw [mem_blk9]
  obtain ⟨e0, e1⟩ := idx_w9 ⟨(i 0).val / 6400, by rw [hN]; omega⟩
  intro a
  match a with
  | ⟨0, _⟩ =>
    show win0_9.index _ (0 : Fin 2) * 6400 ≤ (i 0).val ∧ (i 0).val < win0_9.index _ (0 : Fin 2) * 6400 + 6400
    rw [e0]; show (i 0).val / 6400 * 6400 ≤ (i 0).val ∧ (i 0).val < (i 0).val / 6400 * 6400 + 6400; omega
  | ⟨1, _⟩ =>
    show win0_9.index _ (1 : Fin 2) * 128 ≤ (i 1).val ∧ (i 1).val < win0_9.index _ (1 : Fin 2) * 128 + 128
    rw [e1]; omega

/-- An index of result 2 is in tile `t`'s block iff each coordinate is in the block's range on its axis. -/
theorem mem_blk10 (t : Fin cfg0.N) (i : S800000x8.Idx) :
    i ∈ ((cfg0.win 10).blk t).view.set ↔ ∀ a : Fin 2, win0_10.index t a * S6400x8.size a ≤ (i a).val ∧ (i a).val < win0_10.index t a * S6400x8.size a + S6400x8.size a := by
  show i ∈ ((View.whole main_v17_2).slice (win0_10.rect t)).set ↔ _
  rw [View.set_slice_whole, Rect.mem_set_unit]
  exact Iff.rfl

/-- Every index is in the block of the tile its row falls in. -/
theorem cover10 (i : S800000x8.Idx) : ∃ t : Fin cfg0.N, (cfg0.win 10).flush t = true ∧ i ∈ ((cfg0.win 10).blk t).view.set := by
  have hi0 : (i 0).val < 800000 := (i 0).isLt
  have hi1 : (i 1).val < 8 := (i 1).isLt
  have hN : cfg0.N = 125 := N_0
  refine ⟨⟨(i 0).val / 6400, by rw [hN]; omega⟩, flush0_10 _, ?_⟩
  rw [mem_blk10]
  obtain ⟨e0, e1⟩ := idx_w10 ⟨(i 0).val / 6400, by rw [hN]; omega⟩
  intro a
  match a with
  | ⟨0, _⟩ =>
    show win0_10.index _ (0 : Fin 2) * 6400 ≤ (i 0).val ∧ (i 0).val < win0_10.index _ (0 : Fin 2) * 6400 + 6400
    rw [e0]; show (i 0).val / 6400 * 6400 ≤ (i 0).val ∧ (i 0).val < (i 0).val / 6400 * 6400 + 6400; omega
  | ⟨1, _⟩ =>
    show win0_10.index _ (1 : Fin 2) * 8 ≤ (i 1).val ∧ (i 1).val < win0_10.index _ (1 : Fin 2) * 8 + 8
    rw [e1]; omega

/-! ## The three result arrays after the region -/

theorem final_score : (dats m 0 c).arrAt 8 cfg0.N = scoreArr EF KS QD WE BE :=
  (dats m 0 c).arrAt_eq_of_cover 8 (scoreArr EF KS QD WE BE) (fun t _ => flushed_score m c t) (cover8)
theorem final_wvalue : (dats m 0 c).arrAt 9 cfg0.N = wvalueArr EF KS QD VS WE BE :=
  (dats m 0 c).arrAt_eq_of_cover 9 (wvalueArr EF KS QD VS WE BE) (fun t _ => flushed_wvalue m c t) (cover9)
theorem final_weight : (dats m 0 c).arrAt 10 cfg0.N = weightArr EF KS QD WE BE :=
  (dats m 0 c).arrAt_eq_of_cover 10 (weightArr EF KS QD WE BE) (fun t _ => flushed_weight m c t) (cover10)

/-! ## The row functions of the staged arrays are the specification's, of the arguments -/

theorem scoreRow_eq (e : Fin 800000) (j : Fin 128) :
    scoreRow EF KS QD WE BE e j = score (argX m c) (argEf m c) (argSrc m c) (argDst m c) (argWq m c) (argBq m c) (argWk m c) (argBk m c) (argWe m c) (argBe m c) e j := by
  unfold scoreRow score
  rw [entry_keys, entry_queries, entry_feats, entry_weights, V_main_arg11,
    gatheredRows_apply, gatheredRows_apply, block_k_apply, block_q_apply]
  rfl

theorem weightRow_eq (e : Fin 800000) (h : Fin 8) :
    weightRow EF KS QD WE BE e h = weight (argX m c) (argEf m c) (argSrc m c) (argDst m c) (argWq m c) (argBq m c) (argWk m c) (argBk m c) (argWe m c) (argBe m c) e h := by
  unfold weightRow weight
  refine congrArg (fun z => Ideal.exp (clamp5 z)) ?_
  rw [zero_word, zero_add]
  exact Finset.sum_congr rfl fun d _ => scoreRow_eq m c e (lane h d)

theorem wvalueRow_eq (e : Fin 800000) (j : Fin 128) :
    wvalueRow EF KS QD VS WE BE e j = weighted (argX m c) (argEf m c) (argSrc m c) (argDst m c) (argWq m c) (argBq m c) (argWk m c) (argBk m c) (argWv m c) (argBv m c) (argWe m c) (argBe m c) e j := by
  unfold wvalueRow weighted
  rw [weightRow_eq, entry_values, gatheredRows_apply, block_v_apply]

end

end Cert.KernelIdeal.EdgeValue

end
-- ==== Proof.LibScatterEdges.lean ====
/-
  A ROW SCATTER-ADD AS A SUM OVER EDGES, and the linearity of the aggregation in the features.

  A row scatter into [N, C] at scatter indices [E, 1] sends update (e, c) to (idx (e, 0), c) exactly when the start
  index, read signed, is a row of the matrix. So the updates that land on (r, q) are the (e, q) with idx (e, 0) = r, and
  the sum the scatter-add forms at (r, q) is a sum over those EDGES e, the same set of edges for every column q and every
  number of columns C. That is what lets an aggregation of C = 3 raw features followed by a dense layer be compared
  with the aggregation of the C = 128 transformed features: over the reals (all entries finite) both are the double sum
  over the edges into r and the contracted coordinate.
-/
import proofs.«155304_j53326313947334_2_alg».proof.Proof.LibGraphRows

namespace Cert.Lib.ScatterEdges

open Idealize.ShloMosaic Idealize.ShloMosaic.ValueIdx

/-- The row scatter's dimension numbers as a literal record. -/
abbrev rowSc (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
theorem rowSc_hits {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N)
    (h : (idx (ix2 e (0 : Fin 1))).toInt = (r.val : ℤ)) :
    (rowSc N E C wf).resultIdx? (ix2 e c) idx = some (ix2 r c) := by
  have hs0 : (rowSc N E C wf).start (ix2 e c) idx 0 = (idx (ix2 e (0 : Fin 1))).toInt := by
    unfold ScatterDims.start
    rw [dif_pos (List.mem_singleton.mpr rfl)]
    have hsi : (rowSc N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowSc N E C wf).window (ix2 e c) 0 = 0 := by
    unfold ScatterDims.window
    rw [dif_neg (by simp [ScatterDims.sKept, Shape.kept])]
  have hs1 : (rowSc N E C wf).start (ix2 e c) idx 1 = 0 := by
    unfold ScatterDims.start
    rw [dif_neg (show ¬ (1 : Fin 2) ∈ [(0 : Fin 2)] by decide)]
  have hw1 : (rowSc N E C wf).window (ix2 e c) 1 = c.val := by
    unfold ScatterDims.window
    rw [dif_pos (by simp [ScatterDims.sKept, Shape.kept])]
    rfl
  have hr := r.isLt
  have hc := c.isLt
  have hb : ∀ a, 0 ≤ (rowSc N E C wf).start (ix2 e c) idx a + ((rowSc N E C wf).window (ix2 e c) a : ℕ)
      ∧ (rowSc N E C wf).start (ix2 e c) idx a + ((rowSc N E C wf).window (ix2 e c) a : ℕ) < (⟨2, ![N, C]⟩ : Shape).size a := by
    refine Fin.forall_fin_two.mpr ⟨?_, ?_⟩
    · rw [hs0, hw0, h]
      show (0 : ℤ) ≤ (r.val : ℤ) + ((0 : ℕ) : ℤ) ∧ (r.val : ℤ) + ((0 : ℕ) : ℤ) < ((N : ℕ) : ℤ)
      omega
    · rw [hs1, hw1]
      show (0 : ℤ) ≤ 0 + ((c.val : ℕ) : ℤ) ∧ (0 : ℤ) + ((c.val : ℕ) : ℤ) < ((C : ℕ) : ℤ)
      omega
  unfold ScatterDims.resultIdx?
  rw [dif_pos hb]
  refine congrArg some (funext fun a => Fin.ext ?_)
  revert a
  refine Fin.forall_fin_two.mpr ⟨?_, ?_⟩
  · show ((rowSc N E C wf).start (ix2 e c) idx 0 + ((rowSc N E C wf).window (ix2 e c) 0 : ℕ)).toNat = r.val
    rw [hs0, hw0, h]; simp
  · show ((rowSc N E C wf).start (ix2 e c) idx 1 + ((rowSc N E C wf).window (ix2 e c) 1 : ℕ)).toNat = c.val
    rw [hs1, hw1]; simp

/-- An update (e, c) whose start index, read signed, is the row r lands at (r, c). -/
theorem scatterRows_hits {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (r : Fin N)
    (h : (idx (ix2 e (0 : Fin 1))).toInt = (r.val : ℤ)) :
    d.resultIdx? (ix2 e c) idx = some (ix2 r c) := by
  obtain ⟨uw, iw, sd, iv, wf⟩ := d
  dsimp only at h1 h2 h3 h4
  subst h1 h2 h3 h4
  exact rowSc_hits wf idx e c r h

/-- The edges whose destination, read signed, is the row r. -/
def into {N E w : ℕ} (idx : IVec ⟨2, ![E, 1]⟩ w) (r : Fin N) : Finset (Fin E) :=
  Finset.univ.filter fun e => (idx (ix2 e (0 : Fin 1))).toInt = (r.val : ℤ)

/-- The sum a row scatter-add forms at (r, q) is the sum over the edges into r of the update at (e, q). -/
theorem sum_lands {N E C w : ℕ} {M : Type*} [AddCommMonoid M]
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (r : Fin N) (q : Fin C)
    (F : (⟨2, ![E, C]⟩ : Shape).Idx → M) :
    ∑ j ∈ Finset.univ.filter (fun j => d.resultIdx? j idx = some (ix2 r q)), F j
      = ∑ e ∈ into idx r, F (ix2 e q) := by
  have key : ∀ j : (⟨2, ![E, C]⟩ : Shape).Idx, d.resultIdx? j idx = some (ix2 r q) →
      (idx (ix2 (j 0) (0 : Fin 1))).toInt = (r.val : ℤ) ∧ j = ix2 (j 0) q := by
    intro j hj
    have hj' := hj
    rw [eq_ix2 j] at hj'
    obtain ⟨hrow, hcol⟩ := Cert.Lib.GraphRows.scatterRows_lands d h1 h2 h3 h4 idx (j 0) (j 1) (ix2 r q) hj'
    refine ⟨hrow, ?_⟩
    have hq : j 1 = q := Fin.ext hcol.symm
    exact (eq_ix2 j).trans (congrArg (fun z : Fin C => (ix2 (j 0) z : (⟨2, ![E, C]⟩ : Shape).Idx)) hq)
  refine Finset.sum_bij' (fun j _ => j 0) (fun e _ => ix2 e q) ?_ ?_ ?_ ?_ ?_
  · intro j hj
    exact Finset.mem_filter.mpr ⟨Finset.mem_univ _, (key j (Finset.mem_filter.mp hj).2).1⟩
  · intro e he
    exact Finset.mem_filter.mpr ⟨Finset.mem_univ _, scatterRows_hits d h1 h2 h3 h4 idx e q r (Finset.mem_filter.mp he).2⟩
  · intro j hj
    exact ((key j (Finset.mem_filter.mp hj).2).2).symm
  · intro e _
    rfl
  · intro j hj
    exact congrArg F (key j (Finset.mem_filter.mp hj).2).2

/-! ## Linearity over the reals -/

/-- The coercion of the reals into the extended reals commutes with finite sums. -/
theorem coe_sum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- LINEARITY OF THE AGGREGATION. With real features x (per edge, per raw coordinate j), real weights W, a real
    normalisation a per edge and d of the destination: aggregating the raw coordinates (each edge's scaled by its a),
    scaling the sum by d, and THEN contracting with the weights is aggregating the contracted rows each times a e * d. -/
theorem aggregate_then_transform {ι κ : Type*} [Fintype κ] (S : Finset ι) (x : ι → κ → ℝ) (a : ι → ℝ) (W : κ → ℝ) (d : ℝ) :
    ∑ j : κ, ((d : EReal) * (0 + ∑ e ∈ S, (x e j : EReal) * (a e : EReal))) * (W j : EReal)
      = 0 + ∑ e ∈ S, (∑ j : κ, (x e j : EReal) * (W j : EReal)) * ((a e : EReal) * (d : EReal)) := by
  simp only [zero_add, ← EReal.coe_mul, ← coe_sum]
  refine congrArg _ ?_
  simp only [Finset.mul_sum, Finset.sum_mul]
  rw [Finset.sum_comm]
  refine Finset.sum_congr rfl fun e _ => Finset.sum_congr rfl fun j _ => ?_
  ring

end Cert.Lib.ScatterEdges
-- ==== Proof.EdgeTail.lean ====
/-
  The host operations after the region, on the extended reals: from the three arrays the edge kernel wrote to the
  program's two results.

  The score array [800000, 128] is reshaped to [800000, 8, 16]: entry (e, h, d) is lane 16h + d of edge e. The weighted
  values and the weights are scatter-added over the destination node into [50000, 128] and [50000, 8] — node n receives
  the sum over the edges whose destination, read signed, is n — and reshaped; the result is their quotient, the
  denominator first increased by ε and repeated over a head's 16 coordinates.
-/
import proofs.«155304_j53326313947334_2_alg».proof.Proof.EdgeFinal
import proofs.«155304_j53326313947334_2_alg».proof.Proof.LibScatterEdges

set_option maxRecDepth 16384

noncomputable section

namespace Cert.KernelIdeal.EdgeValue

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Edge Cert.EdgeSpec Cert.KernelIdeal.Selectors

/-- The destination indices laid down a column, as the scatter-adds take them. -/
def dstCol (dst : IVec S800000 32) : IVec S800000x1 32 := broadcastInDim S800000x1 ![0] bcast_S800000_S800000x1_0 dst

/-- The edges the column sends to node `n` are the edges landing on `n`. -/
theorem into_dstCol (dst : IVec S800000 32) (n : Fin 50000) :
    Cert.Lib.ScatterEdges.into (dstCol dst) n = landing dst n := by
  ext e
  simp only [Cert.Lib.ScatterEdges.into, landing, Finset.mem_filter, Finset.mem_univ, true_and]
  unfold dstCol
  rw [Cert.Lib.HostColumns.bcast_a_a1_apply]

/-- The weighted values scatter-added over the destination node, per head and coordinate. -/
def numer (dst : IVec S800000 32) (wv : FVec Ideal S800000x128 .f32) : FVec Ideal S50000x8x16 .f32 :=
  shapeCast S50000x8x16
    (Host.scatterAdd scatter_S50000x128_S800000x1_S800000x128_1_0_0_1 (broadcastInDim S50000x128 ![] bcast_S_S50000x128 (constant S_ .f32 0x00000000#32)) (dstCol dst) wv)
    shapeCasts_S50000x128_S50000x8x16

/-- The weights scatter-added over the destination node, per head. -/
def summed (dst : IVec S800000 32) (w : FVec Ideal S800000x8 .f32) : FVec Ideal S50000x8x1 .f32 :=
  shapeCast S50000x8x1
    (Host.scatterAdd scatter_S50000x8_S800000x1_S800000x8_1_0_0_1 (broadcastInDim S50000x8 ![] bcast_S_S50000x8 (constant S_ .f32 0x00000000#32)) (dstCol dst) w)
    shapeCasts_S50000x8_S50000x8x1

/-- The summed weights plus ε, repeated over a head's 16 coordinates. -/
def denom (dst : IVec S800000 32) (w : FVec Ideal S800000x8 .f32) : FVec Ideal S50000x8x16 .f32 :=
  broadcastInDim S50000x8x16 ![0, 1, 2] bcast_S50000x8x1_S50000x8x16_0_1_2
    (addf (summed dst w) (broadcastInDim S50000x8x1 ![] bcast_S_S50000x8x1 (constant S_ .f32 0x322BCC77#32)))

/-- The first result from the weighted values and the weights per edge. -/
def tailH (dst : IVec S800000 32) (wv : FVec Ideal S800000x128 .f32) (w : FVec Ideal S800000x8 .f32) : FVec Ideal S50000x8x16 .f32 :=
  Host.divf (numer dst wv) (denom dst w)

/-- The second result from the scores per edge. -/
def tailE (sc : FVec Ideal S800000x128 .f32) : FVec Ideal S800000x8x16 .f32 :=
  shapeCast S800000x8x16 sc shapeCasts_S800000x128_S800000x8x16

/-- A quotient and a sum of arrays are taken element by element. -/
theorem divf_at (x y : FVec Ideal S50000x8x16 .f32) (i : S50000x8x16.Idx) : Host.divf x y i = Ideal.div (x i) (y i) := rfl
theorem addf_at (x y : FVec Ideal S50000x8x1 .f32) (i : S50000x8x1.Idx) : addf x y i = x i + y i := rfl

theorem numer_apply (dst : IVec S800000 32) (wv : FVec Ideal S800000x128 .f32) (n : Fin 50000) (h : Fin 8) (d : Fin 16) :
    numer dst wv (ix3 n h d) = Ideal.ofBits .f32 0x00000000#32 + ∑ e ∈ landing dst n, wv (ix2 e (lane h d)) := by
  unfold numer
  rw [shapeCast_apply _ shapeCasts_S50000x128_S50000x8x16 (ix3 n h d) (ix2 n (lane h d)) (by
      rw [Shape.rowMajor_val_two, Shape.rowMajor_val_three]
      show n.val * 128 + (h.val * 16 + d.val) = (n.val * 8 + h.val) * 16 + d.val
      omega)]
  rw [Cert.Lib.GraphRows.scatterAdd_apply, Cert.Lib.ScatterEdges.sum_lands scatter_S50000x128_S800000x1_S800000x128_1_0_0_1 rfl rfl rfl rfl, into_dstCol]
  rfl

theorem summed_apply (dst : IVec S800000 32) (w : FVec Ideal S800000x8 .f32) (n : Fin 50000) (h : Fin 8) :
    summed dst w (ix3 n h (0 : Fin 1)) = Ideal.ofBits .f32 0x00000000#32 + ∑ e ∈ landing dst n, w (ix2 e h) := by
  unfold summed
  rw [shapeCast_apply _ shapeCasts_S50000x8_S50000x8x1 (ix3 n h (0 : Fin 1)) (ix2 n h) (by
      rw [Shape.rowMajor_val_two, Shape.rowMajor_val_three]
      show n.val * 8 + h.val = (n.val * 8 + h.val) * 1 + 0
      omega)]
  rw [Cert.Lib.GraphRows.scatterAdd_apply, Cert.Lib.ScatterEdges.sum_lands scatter_S50000x8_S800000x1_S800000x8_1_0_0_1 rfl rfl rfl rfl, into_dstCol]
  rfl

theorem denom_apply (dst : IVec S800000 32) (w : FVec Ideal S800000x8 .f32) (n : Fin 50000) (h : Fin 8) (d : Fin 16) :
    denom dst w (ix3 n h d)
      = (Ideal.ofBits .f32 0x00000000#32 + ∑ e ∈ landing dst n, w (ix2 e h)) + Ideal.ofBits .f32 0x322BCC77#32 := by
  unfold denom
  rw [broadcastInDim_apply ![0, 1, 2] bcast_S50000x8x1_S50000x8x16_0_1_2 _ (ix3 n h d) (ix3 n h (0 : Fin 1)) (fun a => by
      match a with
      | ⟨0, _⟩ => rfl
      | ⟨1, _⟩ => rfl
      | ⟨2, _⟩ => rfl)]
  rw [addf_at, summed_apply]
  rfl

/-- The first result at node `n`, head `h`, coordinate `d`. -/
theorem tailH_apply (dst : IVec S800000 32) (wv : FVec Ideal S800000x128 .f32) (w : FVec Ideal S800000x8 .f32)
    (n : Fin 50000) (h : Fin 8) (d : Fin 16) :
    tailH dst wv w (ix3 n h d)
      = Ideal.div (Ideal.ofBits .f32 0x00000000#32 + ∑ e ∈ landing dst n, wv (ix2 e (lane h d)))
          ((Ideal.ofBits .f32 0x00000000#32 + ∑ e ∈ landing dst n, w (ix2 e h)) + Ideal.ofBits .f32 0x322BCC77#32) := by
  unfold tailH
  rw [divf_at, numer_apply, denom_apply]

/-- The second result at edge `e`, head `h`, coordinate `d`. -/
theorem tailE_apply (sc : FVec Ideal S800000x128 .f32) (e : Fin 800000) (h : Fin 8) (d : Fin 16) :
    tailE sc (ix3 e h d) = sc (ix2 e (lane h d)) := by
  unfold tailE
  rw [shapeCast_apply _ shapeCasts_S800000x128_S800000x8x16 (ix3 e h d) (ix2 e (lane h d)) (by
      rw [Shape.rowMajor_val_two, Shape.rowMajor_val_three]
      show e.val * 128 + (h.val * 16 + d.val) = (e.val * 8 + h.val) * 16 + d.val
      omega)]

/-- The three result arrays read at an index are their row functions. -/
theorem scoreArr_apply (ef ks qd : S800000x128.Idx → EReal) (we : S128x128.Idx → EReal) (be : S128.Idx → EReal)
    (e : Fin 800000) (j : Fin 128) : scoreArr ef ks qd we be (ix2 e j) = scoreRow ef ks qd we be e j := rfl
theorem wvalueArr_apply (ef ks qd vs : S800000x128.Idx → EReal) (we : S128x128.Idx → EReal) (be : S128.Idx → EReal)
    (e : Fin 800000) (j : Fin 128) : wvalueArr ef ks qd vs we be (ix2 e j) = wvalueRow ef ks qd vs we be e j := rfl
theorem weightArr_apply (ef ks qd : S800000x128.Idx → EReal) (we : S128x128.Idx → EReal) (be : S128.Idx → EReal)
    (e : Fin 800000) (h : Fin 8) : weightArr ef ks qd we be (ix2 e h) = weightRow ef ks qd we be e h := rfl

section
variable (m : (ℓ : Loc nD τ sig) → Buf (Elt Ideal) ℓ) (c : Dev nD)

local notation "EF" => (V m c main_v16 : S800000x128.Idx → EReal)
local notation "KS" => (V m c main_v12 : S800000x128.Idx → EReal)
local notation "QD" => (V m c main_v13 : S800000x128.Idx → EReal)
local notation "VS" => (V m c main_v14 : S800000x128.Idx → EReal)
local notation "WE" => (V m c main_v15 : S128x128.Idx → EReal)
local notation "BE" => (V m c main_arg11 : S128.Idx → EReal)

/-! ## The buffers the later operations read -/

theorem tail_reads_dst :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)
theorem tail_reads_score :
    Pipeline.withArrays (cfgs 0).spec c (V0 m c) (fun w => (dats m 0 c).arrAt w (cfgs 0).N) (Proc.devRef .tc main_v17_0)
      = (dats m 0 c).arrAt 8 cfg0.N :=
  Pipeline.withArrays_arr spec0 launch0.win.arr_inj c _ _ 8
theorem tail_reads_wvalue :
    Pipeline.withArrays (cfgs 0).spec c (V0 m c) (fun w => (dats m 0 c).arrAt w (cfgs 0).N) (Proc.devRef .tc main_v17_1)
      = (dats m 0 c).arrAt 9 cfg0.N :=
  Pipeline.withArrays_arr spec0 launch0.win.arr_inj c _ _ 9
theorem tail_reads_weight :
    Pipeline.withArrays (cfgs 0).spec c (V0 m c) (fun w => (dats m 0 c).arrAt w (cfgs 0).N) (Proc.devRef .tc main_v17_2)
      = (dats m 0 c).arrAt 10 cfg0.N :=
  Pipeline.withArrays_arr spec0 launch0.win.arr_inj c _ _ 10

/-! ## The two results after the later operations -/

set_option maxHeartbeats 8000000 in
theorem tail_h : (Pipeline.afterTail₀ cfgs (dats m) 0 (V0 m) [hostOps1] c main_v30 : S50000x8x16.Idx → EReal)
    = tailH (argDst m c) (wvalueArr EF KS QD VS WE BE) (weightArr EF KS QD WE BE) := by
  unfold Pipeline.afterTail₀
  show StableHlo.after hostOps1 _ (Proc.devRef .tc main_v30) = _
  after_results
  rw [tail_reads_dst m c, tail_reads_wvalue m c, tail_reads_weight m c, final_wvalue m c, final_weight m c]
  rfl

set_option maxHeartbeats 8000000 in
theorem tail_e : (Pipeline.afterTail₀ cfgs (dats m) 0 (V0 m) [hostOps1] c main_v18 : S800000x8x16.Idx → EReal)
    = tailE (scoreArr EF KS QD WE BE) := by
  unfold Pipeline.afterTail₀
  show StableHlo.after hostOps1 _ (Proc.devRef .tc main_v18) = _
  after_results
  rw [tail_reads_score m c, final_score m c]
  rfl

/-- The kernel's first result is the specification's. -/
theorem kernel_hOut : (Pipeline.afterTail₀ cfgs (dats m) 0 (V0 m) [hostOps1] c main_v30 : S50000x8x16.Idx → EReal)
    = hOut (argX m c) (argEf m c) (argSrc m c) (argDst m c) (argWq m c) (argBq m c) (argWk m c) (argBk m c) (argWv m c) (argBv m c) (argWe m c) (argBe m c) := by
  rw [tail_h]
  funext i
  obtain ⟨n, h, d, rfl⟩ : ∃ (n : Fin 50000) (h : Fin 8) (d : Fin 16), i = ix3 n h d := ⟨i 0, i 1, i 2, eq_ix3 i⟩
  rw [tailH_apply]
  simp only [wvalueArr_apply, weightArr_apply, wvalueRow_eq m c, weightRow_eq m c]
  rfl

/-- The kernel's second result is the specification's. -/
theorem kernel_eOut : (Pipeline.afterTail₀ cfgs (dats m) 0 (V0 m) [hostOps1] c main_v18 : S800000x8x16.Idx → EReal)
    = eOut (argX m c) (argEf m c) (argSrc m c) (argDst m c) (argWq m c) (argBq m c) (argWk m c) (argBk m c) (argWe m c) (argBe m c) := by
  rw [tail_e]
  funext i
  obtain ⟨e, h, d, rfl⟩ : ∃ (e : Fin 800000) (h : Fin 8) (d : Fin 16), i = ix3 e h d := ⟨i 0, i 1, i 2, eq_ix3 i⟩
  rw [tailE_apply, scoreArr_apply]
  exact scoreRow_eq m c e (lane h d)

end

/-! ## The kernel's run, read -/

/-- From any memory with zero counters every weakly fair execution of @main terminates, with the two results at the
    specification's functions of the arguments and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30) = hOut (argX m c) (argEf m c) (argSrc m c) (argDst m c) (argWq m c) (argBq m c) (argWk m c) (argBk m c) (argWv m c) (argBv m c) (argWe m c) (argBe m c)
      ∧ r.2.mem ((c.tc : Thread nD τ).loc main_v18) = eOut (argX m c) (argEf m c) (argSrc m c) (argDst m c) (argWq m c) (argBq m c) (argWk m c) (argBk m c) (argWe m c) (argBe m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨((h c).2 main_v30 (Pipeline.mem_restRefs_of main_v30 (by decide) (by decide))).trans (kernel_hOut m c),
      ((h c).2 main_v18 (Pipeline.mem_restRefs_of main_v18 (by decide) (by decide))).trans (kernel_eOut m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).1 5).trans (((dats m 0 c).arrAt_in 5 rfl _).trans ((A_eq m c 5).trans (V_main_arg11 m c)))⟩)
    (run_main m ρ)

end Cert.KernelIdeal.EdgeValue

end
-- ==== Proof.RefDense.lean ====
/-
  THE REFERENCE'S FOUR DENSE LAYERS AND ITS INDEX WRAP, READ AT COORDINATES.

  Each projection is a matrix product plus a bias broadcast along the rows, then the 128 lanes of a row regrouped as
  8 heads of 16: entry (r, h, d) of the regrouped array is lane 16h + d of row r, because
  ((8r + h)·16 + d) = 128r + (16h + d) with 16h + d < 128. And the wrap where(i < 0, i + 50000, i) the reference puts in
  front of each gather leaves a nonnegative index as it is.
-/
import proofs.«155304_j53326313947334_2_alg».proof.Proof.Gen.ReferenceIdeal.Read
import proofs.«155304_j53326313947334_2_alg».proof.Proof.EdgeSpec

noncomputable section

namespace Cert.ReferenceIdeal.RefValue

open Idealize.ShloMosaic Idealize.ShloMosaic.ValueIdx Cert.ReferenceIdeal Cert.ReferenceIdeal.Read Cert.EdgeSpec

/-- The query projection, reshaped to heads, at (row r, head h, coordinate d): lane 16h + d of the dense layer at row r. -/
theorem q_at (A : (⟨S50000x128, .f32⟩ : BufTy).Contents (Elt Ideal)) (W : (⟨S128x128, .f32⟩ : BufTy).Contents (Elt Ideal))
    (b : (⟨S128, .f32⟩ : BufTy).Contents (Elt Ideal)) (r : Fin 50000) (h : Fin 8) (d : Fin 16) :
    val_main_v4 (F := Ideal) A W b (ix3 r h d) = dense A W b r (lane h d) := by
  have e4 : idx_main_v4 (ix3 r h d) = ix2 r (lane h d) := by
    funext a; refine Fin.ext ?_
    match a with
    | ⟨0, _⟩ => show ((r.val * 8 + h.val) * 16 + d.val) / 128 = r.val; omega
    | ⟨1, _⟩ => show ((r.val * 8 + h.val) * 16 + d.val) % 128 = h.val * 16 + d.val; omega
  have el : ∀ k : Fin 128, lidx_main_v0 (ix2 r (lane h d)) k = ix2 r k := fun k => by
    funext a; match a with
    | ⟨0, _⟩ => rfl
    | ⟨1, _⟩ => rfl
  have er : ∀ k : Fin 128, ridx_main_v0 (ix2 r (lane h d)) k = ix2 k (lane h d) := fun k => by
    funext a; match a with
    | ⟨0, _⟩ => rfl
    | ⟨1, _⟩ => rfl
  have eb : idx_main_v1 (idx_main_v2 (ix2 r (lane h d))) = ix1 (lane h d) := by
    funext a; match a with
    | ⟨0, _⟩ => rfl
  rw [val_main_v4_apply, e4, val_main_v3_apply, val_main_v0_apply, val_main_v2_apply, val_main_v1_apply, eb]
  simp only [el, er]
  rfl

/-- The key projection, reshaped to heads, at (row r, head h, coordinate d): lane 16h + d of the dense layer at row r. -/
theorem k_at (A : (⟨S50000x128, .f32⟩ : BufTy).Contents (Elt Ideal)) (W : (⟨S128x128, .f32⟩ : BufTy).Contents (Elt Ideal))
    (b : (⟨S128, .f32⟩ : BufTy).Contents (Elt Ideal)) (r : Fin 50000) (h : Fin 8) (d : Fin 16) :
    val_main_v9 (F := Ideal) A W b (ix3 r h d) = dense A W b r (lane h d) := by
  have e4 : idx_main_v9 (ix3 r h d) = ix2 r (lane h d) := by
    funext a; refine Fin.ext ?_
    match a with
    | ⟨0, _⟩ => show ((r.val * 8 + h.val) * 16 + d.val) / 128 = r.val; omega
    | ⟨1, _⟩ => show ((r.val * 8 + h.val) * 16 + d.val) % 128 = h.val * 16 + d.val; omega
  have el : ∀ k : Fin 128, lidx_main_v5 (ix2 r (lane h d)) k = ix2 r k := fun k => by
    funext a; match a with
    | ⟨0, _⟩ => rfl
    | ⟨1, _⟩ => rfl
  have er : ∀ k : Fin 128, ridx_main_v5 (ix2 r (lane h d)) k = ix2 k (lane h d) := fun k => by
    funext a; match a with
    | ⟨0, _⟩ => rfl
    | ⟨1, _⟩ => rfl
  have eb : idx_main_v6 (idx_main_v7 (ix2 r (lane h d))) = ix1 (lane h d) := by
    funext a; match a with
    | ⟨0, _⟩ => rfl
  rw [val_main_v9_apply, e4, val_main_v8_apply, val_main_v5_apply, val_main_v7_apply, val_main_v6_apply, eb]
  simp only [el, er]
  rfl

/-- The value projection, reshaped to heads, at (row r, head h, coordinate d): lane 16h + d of the dense layer at row r. -/
theorem v_at (A : (⟨S50000x128, .f32⟩ : BufTy).Contents (Elt Ideal)) (W : (⟨S128x128, .f32⟩ : BufTy).Contents (Elt Ideal))
    (b : (⟨S128, .f32⟩ : BufTy).Contents (Elt Ideal)) (r : Fin 50000) (h : Fin 8) (d : Fin 16) :
    val_main_v14 (F := Ideal) A W b (ix3 r h d) = dense A W b r (lane h d) := by
  have e4 : idx_main_v14 (ix3 r h d) = ix2 r (lane h d) := by
    funext a; refine Fin.ext ?_
    match a with
    | ⟨0, _⟩ => show ((r.val * 8 + h.val) * 16 + d.val) / 128 = r.val; omega
    | ⟨1, _⟩ => show ((r.val * 8 + h.val) * 16 + d.val) % 128 = h.val * 16 + d.val; omega
  have el : ∀ k : Fin 128, lidx_main_v10 (ix2 r (lane h d)) k = ix2 r k := fun k => by
    funext a; match a with
    | ⟨0, _⟩ => rfl
    | ⟨1, _⟩ => rfl
  have er : ∀ k : Fin 128, ridx_main_v10 (ix2 r (lane h d)) k = ix2 k (lane h d) := fun k => by
    funext a; match a with
    | ⟨0, _⟩ => rfl
    | ⟨1, _⟩ => rfl
  have eb : idx_main_v11 (idx_main_v12 (ix2 r (lane h d))) = ix1 (lane h d) := by
    funext a; match a with
    | ⟨0, _⟩ => rfl
  rw [val_main_v14_apply, e4, val_main_v13_apply, val_main_v10_apply, val_main_v12_apply, val_main_v11_apply, eb]
  simp only [el, er]
  rfl

/-- The edge projection, reshaped to heads, at (row r, head h, coordinate d): lane 16h + d of the dense layer at row r. -/
theorem p_at (A : (⟨S800000x128, .f32⟩ : BufTy).Contents (Elt Ideal)) (W : (⟨S128x128, .f32⟩ : BufTy).Contents (Elt Ideal))
    (b : (⟨S128, .f32⟩ : BufTy).Contents (Elt Ideal)) (r : Fin 800000) (h : Fin 8) (d : Fin 16) :
    val_main_v19 (F := Ideal) A W b (ix3 r h d) = dense A W b r (lane h d) := by
  have e4 : idx_main_v19 (ix3 r h d) = ix2 r (lane h d) := by
    funext a; refine Fin.ext ?_
    match a with
    | ⟨0, _⟩ => show ((r.val * 8 + h.val) * 16 + d.val) / 128 = r.val; omega
    | ⟨1, _⟩ => show ((r.val * 8 + h.val) * 16 + d.val) % 128 = h.val * 16 + d.val; omega
  have el : ∀ k : Fin 128, lidx_main_v15 (ix2 r (lane h d)) k = ix2 r k := fun k => by
    funext a; match a with
    | ⟨0, _⟩ => rfl
    | ⟨1, _⟩ => rfl
  have er : ∀ k : Fin 128, ridx_main_v15 (ix2 r (lane h d)) k = ix2 k (lane h d) := fun k => by
    funext a; match a with
    | ⟨0, _⟩ => rfl
    | ⟨1, _⟩ => rfl
  have eb : idx_main_v16 (idx_main_v17 (ix2 r (lane h d))) = ix1 (lane h d) := by
    funext a; match a with
    | ⟨0, _⟩ => rfl
  rw [val_main_v19_apply, e4, val_main_v18_apply, val_main_v15_apply, val_main_v17_apply, val_main_v16_apply, eb]
  simp only [el, er]
  rfl

/-- The wrap of a nonnegative index is the index: the three wrapped index columns the reference gathers at. -/
theorem wrap_v25 (x2 : (⟨S800000, .i32⟩ : BufTy).Contents (Elt Ideal)) (e : Fin 800000)
    (h : 0 ≤ (x2 (ix1 e)).toInt) : val_main_v25 (F := Ideal) x2 (ix2 e (0 : Fin 1)) = x2 (ix1 e) := by
  have e1 : idx_main_v25 (ix2 e (0 : Fin 1)) = ix1 e := by
    funext a; match a with
    | ⟨0, _⟩ => rfl
  rw [val_main_v25_apply, e1, val_main_v24_apply, val_main_v21_apply, val_main_v23_apply, val_main_v20_apply,
    val_main_c_apply, val_main_v22_apply, val_main_c_0_apply]
  exact Cert.Lib.GraphRows.wrap_of_nonneg _ _ _ (by decide) h

theorem wrap_v32 (x3 : (⟨S800000, .i32⟩ : BufTy).Contents (Elt Ideal)) (e : Fin 800000)
    (h : 0 ≤ (x3 (ix1 e)).toInt) : val_main_v32 (F := Ideal) x3 (ix2 e (0 : Fin 1)) = x3 (ix1 e) := by
  have e1 : idx_main_v32 (ix2 e (0 : Fin 1)) = ix1 e := by
    funext a; match a with
    | ⟨0, _⟩ => rfl
  rw [val_main_v32_apply, e1, val_main_v31_apply, val_main_v28_apply, val_main_v30_apply, val_main_v27_apply,
    val_main_c_1_apply, val_main_v29_apply, val_main_c_2_apply]
  exact Cert.Lib.GraphRows.wrap_of_nonneg _ _ _ (by decide) h

theorem wrap_v48 (x2 : (⟨S800000, .i32⟩ : BufTy).Contents (Elt Ideal)) (e : Fin 800000)
    (h : 0 ≤ (x2 (ix1 e)).toInt) : val_main_v48 (F := Ideal) x2 (ix2 e (0 : Fin 1)) = x2 (ix1 e) := by
  have e1 : idx_main_v48 (ix2 e (0 : Fin 1)) = ix1 e := by
    funext a; match a with
    | ⟨0, _⟩ => rfl
  rw [val_main_v48_apply, e1, val_main_v47_apply, val_main_v44_apply, val_main_v46_apply, val_main_v43_apply,
    val_main_c_8_apply, val_main_v45_apply, val_main_c_9_apply]
  exact Cert.Lib.GraphRows.wrap_of_nonneg _ _ _ (by decide) h

/-- The destination column the two scatter-adds read is the destination array itself. -/
theorem col_v53 (x3 : (⟨S800000, .i32⟩ : BufTy).Contents (Elt Ideal)) (e : Fin 800000) :
    val_main_v53 (F := Ideal) x3 (ix2 e (0 : Fin 1)) = x3 (ix1 e) := by
  have e1 : idx_main_v53 (ix2 e (0 : Fin 1)) = ix1 e := by
    funext a; match a with
    | ⟨0, _⟩ => rfl
  rw [val_main_v53_apply, e1]

theorem col_v56 (x3 : (⟨S800000, .i32⟩ : BufTy).Contents (Elt Ideal)) (e : Fin 800000) :
    val_main_v56 (F := Ideal) x3 (ix2 e (0 : Fin 1)) = x3 (ix1 e) := by
  have e1 : idx_main_v56 (ix2 e (0 : Fin 1)) = ix1 e := by
    funext a; match a with
    | ⟨0, _⟩ => rfl
  rw [val_main_v56_apply, e1]

end Cert.ReferenceIdeal.RefValue

end
-- ==== Proof.LibNodeHeads.lean ====
/-
  GATHER AND SCATTER-ADD ALONG THE NODE AXIS OF A THREE-AXIS ARRAY [N, A, B] (nodes, heads, coordinates of a head), READ
  AT COORDINATES.

  A gather of an array [N, A, B] at E start indices held as a column [E, 1], whole slices [1, A, B], reads for edge e
  the slice of node clampRow (idx (e, 0)): the start index read as a signed integer and clamped into [0, N - 1]; the
  two trailing coordinates pass through. A scatter-add of E update slices [A, B] into [N, A, B] sends update (e, a, b)
  to (idx (e, 0), a, b) exactly when the start index, read signed and NOT clamped, is a node, and drops it otherwise.
  So the updates that land on (r, a, b) are the (e, a, b) with idx (e, 0) = r, and the sum the scatter-add forms there
  is a sum over those EDGES e: the same set of edges for every (a, b) and for every pair of trailing extents, which is
  what lets a numerator [N, A, B] and a denominator [N, A, 1] be sums over one and the same set of edges.

  Every statement takes the dimension numbers by their lists, so that any printed record with these lists unifies.
-/
import Idealize.ShloMosaic.PureOps.Ideal
import Idealize.ShloMosaic.Lib.ValueIdx
import proofs.«155304_j53326313947334_2_alg».proof.Proof.LibGraphRows
import proofs.«155304_j53326313947334_2_alg».proof.Proof.LibScatterEdges

namespace Cert.Lib.NodeHeads

open Idealize.ShloMosaic Idealize.ShloMosaic.ValueIdx
open Cert.Lib.GraphRows (clampRow)
open Cert.Lib.ScatterEdges (into)

/-! ## The gather of whole node slices -/

set_option backward.isDefEq.respectTransparency.types false in
/-- A gather of whole slices of [N, A, B] at start indices [E, 1]: result (e, a, b) reads the operand at
    (clampRow (idx (e, 0)), a, b). -/
theorem gatherHeads_operandIdx {N E A B w : ℕ} (hN : 0 < N)
    (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B]) (idx : IVec ⟨2, ![E, 1]⟩ w) (e : Fin E) (a : Fin A) (b : Fin B) :
    d.operandIdx (ix3 e a b) idx = ix3 (clampRow hN (idx (ix2 e (0 : Fin 1)))) a b := by
  obtain ⟨od, cs, ob, sb, sim, iv, ss, wf⟩ := d
  dsimp only at h1 h2 h3 h4 h5 h6 h7
  subst h1 h2 h3 h4 h5 h6 h7
  funext k
  refine Fin.ext ?_
  match k with
  | ⟨0, _⟩ =>
    show GatherDims.start _ (ix3 e a b) idx 0 + GatherDims.batchCoord _ (ix3 e a b) 0 + GatherDims.offCoord _ (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1, 2], [0], [], [], [0], 1, ![1, A, B], wf⟩ :
          GatherDims ⟨3, ![N, A, B]⟩ ⟨2, ![E, 1]⟩ ⟨3, ![E, A, B]⟩) (ix3 e a b)
        ⟨List.idxOf (0 : Fin 3) [(0 : Fin 3)], List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show GatherDims.start _ (ix3 e a b) idx 1 + GatherDims.batchCoord _ (ix3 e a b) 1 + GatherDims.offCoord _ (ix3 e a b) 1 = a.val
    rw [GatherDims.batchCoord_eq_zero _ _ _ List.not_mem_nil]
    unfold GatherDims.start
    rw [dif_neg (show ¬ (1 : Fin 3) ∈ [(0 : Fin 3)] by decide)]
    unfold GatherDims.offCoord
    rw [dif_pos ((GatherDims.mem_sKept _ _).2 ⟨show ¬ (1 : Fin 3) ∈ [(0 : Fin 3)] by decide, List.not_mem_nil⟩)]
    simp only [Nat.zero_add]
    rfl
  | ⟨2, _⟩ =>
    show GatherDims.start _ (ix3 e a b) idx 2 + GatherDims.batchCoord _ (ix3 e a b) 2 + GatherDims.offCoord _ (ix3 e a b) 2 = b.val
    rw [GatherDims.batchCoord_eq_zero _ _ _ List.not_mem_nil]
    unfold GatherDims.start
    rw [dif_neg (show ¬ (2 : Fin 3) ∈ [(0 : Fin 3)] by decide)]
    unfold GatherDims.offCoord
    rw [dif_pos ((GatherDims.mem_sKept _ _).2 ⟨show ¬ (2 : Fin 3) ∈ [(0 : Fin 3)] by decide, List.not_mem_nil⟩)]
    simp only [Nat.zero_add]
    rfl

/-! ## The scatter of whole node slices -/

/-- The scatter's dimension numbers as a literal record. -/
abbrev headSc (N E A B : ℕ) (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ := ⟨[1, 2], [0], [0], 1, wf⟩

section Record
variable {N E A B w : ℕ} (wf : ScatterDims.WF ⟨3, ![N, A, B]⟩ ⟨2, ![E, 1]⟩ ⟨3, ![E, A, B]⟩ [1, 2] [0] [0] 1)
  (idx : IVec ⟨2, ![E, 1]⟩ w) (e : Fin E) (a : Fin A) (b : Fin B)

set_option backward.isDefEq.respectTransparency.types false in
/-- On the node axis the window starts at the start index read signed. -/
theorem headSc_start0 : (headSc N E A B wf).start (ix3 e a b) idx 0 = (idx (ix2 e (0 : Fin 1))).toInt := by
  unfold ScatterDims.start
  rw [dif_pos (List.mem_singleton.mpr rfl)]
  have hsi : (headSc N E A B wf).siIdx (ix3 e a b)
      ⟨List.idxOf (0 : Fin 3) [(0 : Fin 3)], List.idxOf_lt_length_iff.2 (List.mem_singleton.mpr rfl)⟩ = ix2 e (0 : Fin 1) := by
    funext c; refine Fin.ext ?_
    match c with
    | ⟨0, _⟩ => rfl
    | ⟨1, _⟩ => rfl
  rw [hsi]

set_option backward.isDefEq.respectTransparency.types false in
theorem headSc_window0 : (headSc N E A B wf).window (ix3 e a b) 0 = 0 := by
  unfold ScatterDims.window
  rw [dif_neg (by simp [ScatterDims.sKept, Shape.kept])]

set_option backward.isDefEq.respectTransparency.types false in
theorem headSc_start1 : (headSc N E A B wf).start (ix3 e a b) idx 1 = 0 := by
  unfold ScatterDims.start
  rw [dif_neg (show ¬ (1 : Fin 3) ∈ [(0 : Fin 3)] by decide)]

set_option backward.isDefEq.respectTransparency.types false in
theorem headSc_window1 : (headSc N E A B wf).window (ix3 e a b) 1 = a.val := by
  unfold ScatterDims.window
  rw [dif_pos (by simp [ScatterDims.sKept, Shape.kept])]
  rfl

set_option backward.isDefEq.respectTransparency.types false in
theorem headSc_start2 : (headSc N E A B wf).start (ix3 e a b) idx 2 = 0 := by
  unfold ScatterDims.start
  rw [dif_neg (show ¬ (2 : Fin 3) ∈ [(0 : Fin 3)] by decide)]

set_option backward.isDefEq.respectTransparency.types false in
theorem headSc_window2 : (headSc N E A B wf).window (ix3 e a b) 2 = b.val := by
  unfold ScatterDims.window
  rw [dif_pos (by simp [ScatterDims.sKept, Shape.kept])]
  rfl

set_option backward.isDefEq.respectTransparency.types false in
/-- Update (e, a, b) lands at i only if its start index, read signed, is the node of i, and then at (a, b). -/
theorem headSc_lands (i : (⟨3, ![N, A, B]⟩ : Shape).Idx)
    (h : (headSc N E A B wf).resultIdx? (ix3 e a b) idx = some i) :
    (idx (ix2 e (0 : Fin 1))).toInt = ((i 0).val : ℤ) ∧ (i 1).val = a.val ∧ (i 2).val = b.val := by
  unfold ScatterDims.resultIdx? at h
  split at h
  · rename_i hb
    have hi := Option.some.inj h
    have e0 : ((headSc N E A B wf).start (ix3 e a b) idx 0 + ((headSc N E A B wf).window (ix3 e a b) 0 : ℕ)).toNat = (i 0).val :=
      congrArg Fin.val (congrFun hi 0)
    have e1 : ((headSc N E A B wf).start (ix3 e a b) idx 1 + ((headSc N E A B wf).window (ix3 e a b) 1 : ℕ)).toNat = (i 1).val :=
      congrArg Fin.val (congrFun hi 1)
    have e2 : ((headSc N E A B wf).start (ix3 e a b) idx 2 + ((headSc N E A B wf).window (ix3 e a b) 2 : ℕ)).toNat = (i 2).val :=
      congrArg Fin.val (congrFun hi 2)
    have hb0 := (hb 0).1
    rw [headSc_start0, headSc_window0] at e0 hb0
    rw [headSc_start1, headSc_window1] at e1
    rw [headSc_start2, headSc_window2] at e2
    simp only [Nat.cast_zero, add_zero] at e0 hb0
    refine ⟨?_, ?_, ?_⟩
    · rw [← e0]; exact (Int.toNat_of_nonneg hb0).symm
    · rw [← e1]; simp
    · rw [← e2]; simp
  · exact absurd h (by simp)

set_option backward.isDefEq.respectTransparency.types false in
/-- Update (e, a, b) whose start index, read signed, is the node r lands at (r, a, b). -/
theorem headSc_hits (r : Fin N) (h : (idx (ix2 e (0 : Fin 1))).toInt = (r.val : ℤ)) :
    (headSc N E A B wf).resultIdx? (ix3 e a b) idx = some (ix3 r a b) := by
  have hr := r.isLt
  have ha := a.isLt
  have hb' := b.isLt
  have hb : ∀ k, 0 ≤ (headSc N E A B wf).start (ix3 e a b) idx k + ((headSc N E A B wf).window (ix3 e a b) k : ℕ)
      ∧ (headSc N E A B wf).start (ix3 e a b) idx k + ((headSc N E A B wf).window (ix3 e a b) k : ℕ)
          < (⟨3, ![N, A, B]⟩ : Shape).size k := by
    intro k
    match k with
    | ⟨0, _⟩ =>
      show 0 ≤ (headSc N E A B wf).start (ix3 e a b) idx 0 + ((headSc N E A B wf).window (ix3 e a b) 0 : ℕ)
        ∧ (headSc N E A B wf).start (ix3 e a b) idx 0 + ((headSc N E A B wf).window (ix3 e a b) 0 : ℕ) < ((N : ℕ) : ℤ)
      rw [headSc_start0, headSc_window0, h]
      omega
    | ⟨1, _⟩ =>
      show 0 ≤ (headSc N E A B wf).start (ix3 e a b) idx 1 + ((headSc N E A B wf).window (ix3 e a b) 1 : ℕ)
        ∧ (headSc N E A B wf).start (ix3 e a b) idx 1 + ((headSc N E A B wf).window (ix3 e a b) 1 : ℕ) < ((A : ℕ) : ℤ)
      rw [headSc_start1, headSc_window1]
      omega
    | ⟨2, _⟩ =>
      show 0 ≤ (headSc N E A B wf).start (ix3 e a b) idx 2 + ((headSc N E A B wf).window (ix3 e a b) 2 : ℕ)
        ∧ (headSc N E A B wf).start (ix3 e a b) idx 2 + ((headSc N E A B wf).window (ix3 e a b) 2 : ℕ) < ((B : ℕ) : ℤ)
      rw [headSc_start2, headSc_window2]
      omega
  unfold ScatterDims.resultIdx?
  rw [dif_pos hb]
  refine congrArg some (funext fun k => Fin.ext ?_)
  match k with
  | ⟨0, _⟩ =>
    show ((headSc N E A B wf).start (ix3 e a b) idx 0 + ((headSc N E A B wf).window (ix3 e a b) 0 : ℕ)).toNat = r.val
    rw [headSc_start0, headSc_window0, h]; simp
  | ⟨1, _⟩ =>
    show ((headSc N E A B wf).start (ix3 e a b) idx 1 + ((headSc N E A B wf).window (ix3 e a b) 1 : ℕ)).toNat = a.val
    rw [headSc_start1, headSc_window1]; simp
  | ⟨2, _⟩ =>
    show ((headSc N E A B wf).start (ix3 e a b) idx 2 + ((headSc N E A B wf).window (ix3 e a b) 2 : ℕ)).toNat = b.val
    rw [headSc_start2, headSc_window2]; simp

end Record

/-- A scatter of whole slices into [N, A, B] at scatter indices [E, 1]: update (e, a, b) lands at i only if its start
    index, read signed, is the node of i, and then at (a, b). -/
theorem scatterHeads_lands {N E A B w : ℕ}
    (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1) (idx : IVec ⟨2, ![E, 1]⟩ w) (e : Fin E) (a : Fin A) (b : Fin B)
    (i : (⟨3, ![N, A, B]⟩ : Shape).Idx) (h : d.resultIdx? (ix3 e a b) idx = some i) :
    (idx (ix2 e (0 : Fin 1))).toInt = ((i 0).val : ℤ) ∧ (i 1).val = a.val ∧ (i 2).val = b.val := by
  obtain ⟨uw, iw, sd, iv, wf⟩ := d
  dsimp only at h1 h2 h3 h4
  subst h1 h2 h3 h4
  exact headSc_lands wf idx e a b i h

/-- An update (e, a, b) whose start index, read signed, is the node r lands at (r, a, b). -/
theorem scatterHeads_hits {N E A B w : ℕ}
    (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1) (idx : IVec ⟨2, ![E, 1]⟩ w) (e : Fin E) (a : Fin A) (b : Fin B) (r : Fin N)
    (h : (idx (ix2 e (0 : Fin 1))).toInt = (r.val : ℤ)) :
    d.resultIdx? (ix3 e a b) idx = some (ix3 r a b) := by
  obtain ⟨uw, iw, sd, iv, wf⟩ := d
  dsimp only at h1 h2 h3 h4
  subst h1 h2 h3 h4
  exact headSc_hits wf idx e a b r h

/-- The sum a scatter-add of whole slices forms at (r, p, q) is the sum over the edges into r of the update at
    (e, p, q). -/
theorem sum_lands {N E A B w : ℕ} {M : Type*} [AddCommMonoid M]
    (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1) (idx : IVec ⟨2, ![E, 1]⟩ w) (r : Fin N) (p : Fin A) (q : Fin B)
    (F : (⟨3, ![E, A, B]⟩ : Shape).Idx → M) :
    ∑ j ∈ Finset.univ.filter (fun j => d.resultIdx? j idx = some (ix3 r p q)), F j
      = ∑ e ∈ into idx r, F (ix3 e p q) := by
  have key : ∀ j : (⟨3, ![E, A, B]⟩ : Shape).Idx, d.resultIdx? j idx = some (ix3 r p q) →
      (idx (ix2 (j 0) (0 : Fin 1))).toInt = (r.val : ℤ) ∧ j = ix3 (j 0) p q := by
    intro j hj
    have hj' := hj
    rw [eq_ix3 j] at hj'
    obtain ⟨hrow, ha, hb⟩ := scatterHeads_lands d h1 h2 h3 h4 idx (j 0) (j 1) (j 2) (ix3 r p q) hj'
    refine ⟨hrow, ?_⟩
    have hp : j 1 = p := Fin.ext ha.symm
    have hq : j 2 = q := Fin.ext hb.symm
    exact (eq_ix3 j).trans
      ((congrArg (fun z : Fin A => (ix3 (j 0) z (j 2) : (⟨3, ![E, A, B]⟩ : Shape).Idx)) hp).trans
        (congrArg (fun z : Fin B => (ix3 (j 0) p z : (⟨3, ![E, A, B]⟩ : Shape).Idx)) hq))
  refine Finset.sum_bij' (fun j _ => j 0) (fun e _ => ix3 e p q) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      scatterHeads_hits d h1 h2 h3 h4 idx e p q r (Finset.mem_filter.mp he).2⟩
  · intro j hj
    exact ((key j (Finset.mem_filter.mp hj).2).2).symm
  · intro e _
    rfl
  · intro j hj
    exact congrArg F (key j (Finset.mem_filter.mp hj).2).2

/-- On the extended reals, a scatter-add of whole slices into [N, A, B] read at (r, p, q): the operand's element plus
    the sum over the edges into r of the update at (e, p, q). -/
theorem scatterAdd_heads_apply {N E A B w : ℕ} {φ : FTy}
    (d : ScatterDims ⟨3, ![N, A, B]⟩ ⟨2, ![E, 1]⟩ ⟨3, ![E, A, B]⟩)
    (h1 : d.updateWindowDims = [1, 2]) (h2 : d.insertedWindowDims = [0]) (h3 : d.scatterDimsToOperandDims = [0])
    (h4 : d.indexVectorDim = 1) (x : FVec Ideal ⟨3, ![N, A, B]⟩ φ) (idx : IVec ⟨2, ![E, 1]⟩ w)
    (upd : FVec Ideal ⟨3, ![E, A, B]⟩ φ) (r : Fin N) (p : Fin A) (q : Fin B) :
    Host.scatterAdd d x idx upd (ix3 r p q) = x (ix3 r p q) + ∑ e ∈ into idx r, upd (ix3 e p q) := by
  rw [Cert.Lib.GraphRows.scatterAdd_apply, sum_lands d h1 h2 h3 h4 idx r p q upd]

/-- A gather of whole slices of [N, A, B] read at (e, a, b): the operand at the node the start index selects. -/
theorem gather_heads_apply {α : Type} {N E A B w : ℕ} (hN : 0 < N)
    (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B]) (x : (⟨3, ![N, A, B]⟩ : Shape).Idx → α) (idx : IVec ⟨2, ![E, 1]⟩ w)
    (e : Fin E) (a : Fin A) (b : Fin B) :
    Host.gather d x idx (ix3 e a b) = x (ix3 (clampRow hN (idx (ix2 e (0 : Fin 1)))) a b) := by
  rw [Cert.Lib.GraphRows.gather_apply, gatherHeads_operandIdx hN d h1 h2 h3 h4 h5 h6 h7 idx e a b]

end Cert.Lib.NodeHeads
-- ==== Proof.RefValue.lean ====
/-
  THE REFERENCE PROGRAM COMPUTES THE SPECIFICATION.

  Under "every source and destination index is nonnegative" the reference's two results are the specification's arrays,
  index by index. The wrap in front of each gather is then the identity, so the three gathers read the rows the
  specification names (the index read signed, clamped into the node range); the two clamps are max then min; the
  reduction over the 16 coordinates of a head starts from the zero word; and each scatter-add, which starts from an
  array of zero words, forms at node n the zero word plus the sum over the edges whose destination, read signed, is n —
  the same set of edges for the numerator [50000, 8, 16] and for the denominator [50000, 8, 1].
-/
import proofs.«155304_j53326313947334_2_alg».proof.Proof.RefDense
import proofs.«155304_j53326313947334_2_alg».proof.Proof.LibNodeHeads

noncomputable section

namespace Cert.ReferenceIdeal.RefValue

open Idealize.ShloMosaic Idealize.ShloMosaic.ValueIdx Cert.ReferenceIdeal Cert.ReferenceIdeal.Read Cert.EdgeSpec

section
variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-! ## The three gathers -/

/-- The gathered keys: the key projection at the source row. -/
theorem keys_at (hsrc : ∀ e : Fin 800000, 0 ≤ (x2 (ix1 e)).toInt) (e : Fin 800000) (h : Fin 8) (d : Fin 16) :
    val_main_v26 (F := Ideal) x0 x2 x6 x7 (ix3 e h d) = dense x0 x6 x7 (rowOf x2 e) (lane h d) := by
  unfold val_main_v26
  rw [Cert.Lib.NodeHeads.gather_heads_apply (by decide) _ rfl rfl rfl rfl rfl rfl rfl, wrap_v25 x2 e (hsrc e)]
  exact k_at x0 x6 x7 _ h d

/-- The gathered queries: the query projection at the destination row. -/
theorem queries_at (hdst : ∀ e : Fin 800000, 0 ≤ (x3 (ix1 e)).toInt) (e : Fin 800000) (h : Fin 8) (d : Fin 16) :
    val_main_v33 (F := Ideal) x0 x3 x4 x5 (ix3 e h d) = dense x0 x4 x5 (rowOf x3 e) (lane h d) := by
  unfold val_main_v33
  rw [Cert.Lib.NodeHeads.gather_heads_apply (by decide) _ rfl rfl rfl rfl rfl rfl rfl, wrap_v32 x3 e (hdst e)]
  exact q_at x0 x4 x5 _ h d

/-- The gathered values: the value projection at the source row. -/
theorem values_at (hsrc : ∀ e : Fin 800000, 0 ≤ (x2 (ix1 e)).toInt) (e : Fin 800000) (h : Fin 8) (d : Fin 16) :
    val_main_v49 (F := Ideal) x0 x2 x8 x9 (ix3 e h d) = dense x0 x8 x9 (rowOf x2 e) (lane h d) := by
  unfold val_main_v49
  rw [Cert.Lib.NodeHeads.gather_heads_apply (by decide) _ rfl rfl rfl rfl rfl rfl rfl, wrap_v48 x2 e (hsrc e)]
  exact v_at x0 x8 x9 _ h d

/-! ## The score, the weight, the weighted value -/

/-- The second result at (e, h, d) is the score of lane 16h + d. -/
theorem score_at (hsrc : ∀ e : Fin 800000, 0 ≤ (x2 (ix1 e)).toInt) (hdst : ∀ e : Fin 800000, 0 ≤ (x3 (ix1 e)).toInt)
    (e : Fin 800000) (h : Fin 8) (d : Fin 16) :
    val_main_v38 (F := Ideal) x0 x1 x2 x3 x4 x5 x6 x7 x10 x11 (ix3 e h d)
      = score x0 x1 x2 x3 x4 x5 x6 x7 x10 x11 e (lane h d) := by
  rw [val_main_v38_apply, val_main_v37_apply, val_main_call0_v4_apply, val_main_call0_v3_apply, val_main_cst_4_apply,
    val_main_call0_v2_apply, val_main_call0_v1_apply, val_main_call0_v0_apply, val_main_cst_3_apply,
    val_main_v36_apply, val_main_v34_apply, val_main_v35_apply, val_main_cst_apply,
    keys_at x0 x2 x6 x7 hsrc e h d, queries_at x0 x3 x4 x5 hdst e h d, p_at x1 x10 x11 e h d]
  rfl

/-- The attention weight at (e, h, 0): the exponential of the clamped sum of the head's scores. -/
theorem weight_at (hsrc : ∀ e : Fin 800000, 0 ≤ (x2 (ix1 e)).toInt) (hdst : ∀ e : Fin 800000, 0 ≤ (x3 (ix1 e)).toInt)
    (e : Fin 800000) (h : Fin 8) :
    val_main_v42 (F := Ideal) x0 x1 x2 x3 x4 x5 x6 x7 x10 x11 (ix3 e h (0 : Fin 1))
      = weight x0 x1 x2 x3 x4 x5 x6 x7 x10 x11 e h := by
  have e40 : idx_main_v40 (ix3 e h (0 : Fin 1)) = ix2 e h := by
    funext a; match a with
    | ⟨0, _⟩ => rfl
    | ⟨1, _⟩ => rfl
  have e39 : ∀ k : Fin 16, idx_main_v39 (ix2 e h) k = ix3 e h k := fun k => by
    funext a; match a with
    | ⟨0, _⟩ => rfl
    | ⟨1, _⟩ => rfl
    | ⟨2, _⟩ => rfl
  rw [val_main_v42_apply, val_main_v41_apply, val_main_call1_v4_apply, val_main_call1_v3_apply, val_main_cst_7_apply,
    val_main_call1_v2_apply, val_main_call1_v1_apply, val_main_call1_v0_apply, val_main_cst_6_apply,
    val_main_v40_apply, e40, val_main_v39_apply, val_main_cst_5_apply]
  simp only [e39, score_at x0 x1 x2 x3 x4 x5 x6 x7 x10 x11 hsrc hdst]
  rfl

/-- The update the first scatter-add sends from (e, h, d): the source's value times the head's weight. -/
theorem weighted_at (hsrc : ∀ e : Fin 800000, 0 ≤ (x2 (ix1 e)).toInt) (hdst : ∀ e : Fin 800000, 0 ≤ (x3 (ix1 e)).toInt)
    (e : Fin 800000) (h : Fin 8) (d : Fin 16) :
    val_main_v51 (F := Ideal) x0 x1 x2 x3 x4 x5 x6 x7 x8 x9 x10 x11 (ix3 e h d)
      = weighted x0 x1 x2 x3 x4 x5 x6 x7 x8 x9 x10 x11 e (lane h d) := by
  have e50 : idx_main_v50 (ix3 e h d) = ix3 e h (0 : Fin 1) := by
    funext a; match a with
    | ⟨0, _⟩ => rfl
    | ⟨1, _⟩ => rfl
    | ⟨2, _⟩ => rfl
  rw [val_main_v51_apply, val_main_v50_apply, e50, values_at x0 x2 x8 x9 hsrc e h d,
    weight_at x0 x1 x2 x3 x4 x5 x6 x7 x10 x11 hsrc hdst e h]
  unfold weighted
  rw [headOf_lane]
  rfl

/-! ## The two scatter-adds and the quotient -/

/-- The edges the scatter-adds land on node n are the specification's. -/
theorem into_v53 (n : Fin 50000) :
    Cert.Lib.ScatterEdges.into (val_main_v53 (F := Ideal) x3) n = landing x3 n := by
  ext e
  simp only [Cert.Lib.ScatterEdges.into, landing, Finset.mem_filter, Finset.mem_univ, true_and]
  rw [col_v53]

theorem into_v56 (n : Fin 50000) :
    Cert.Lib.ScatterEdges.into (val_main_v56 (F := Ideal) x3) n = landing x3 n := by
  ext e
  simp only [Cert.Lib.ScatterEdges.into, landing, Finset.mem_filter, Finset.mem_univ, true_and]
  rw [col_v56]

/-- The numerator at (n, h, d). -/
theorem numerator_at (hsrc : ∀ e : Fin 800000, 0 ≤ (x2 (ix1 e)).toInt) (hdst : ∀ e : Fin 800000, 0 ≤ (x3 (ix1 e)).toInt)
    (n : Fin 50000) (h : Fin 8) (d : Fin 16) :
    val_main_v54 (F := Ideal) x0 x1 x2 x3 x4 x5 x6 x7 x8 x9 x10 x11 (ix3 n h d)
      = Ideal.ofBits .f32 0x00000000#32
        + ∑ e ∈ landing x3 n, weighted x0 x1 x2 x3 x4 x5 x6 x7 x8 x9 x10 x11 e (lane h d) := by
  unfold val_main_v54
  rw [Cert.Lib.NodeHeads.scatterAdd_heads_apply _ rfl rfl rfl rfl, into_v53 x3 n, val_main_v52_apply,
    val_main_cst_10_apply]
  refine congrArg (_ + ·) (Finset.sum_congr rfl fun e _ => ?_)
  exact weighted_at x0 x1 x2 x3 x4 x5 x6 x7 x8 x9 x10 x11 hsrc hdst e h d

/-- The denominator's sum at (n, h, 0). -/
theorem denominator_at (hsrc : ∀ e : Fin 800000, 0 ≤ (x2 (ix1 e)).toInt) (hdst : ∀ e : Fin 800000, 0 ≤ (x3 (ix1 e)).toInt)
    (n : Fin 50000) (h : Fin 8) :
    val_main_v57 (F := Ideal) x0 x1 x2 x3 x4 x5 x6 x7 x10 x11 (ix3 n h (0 : Fin 1))
      = Ideal.ofBits .f32 0x00000000#32 + ∑ e ∈ landing x3 n, weight x0 x1 x2 x3 x4 x5 x6 x7 x10 x11 e h := by
  unfold val_main_v57
  rw [Cert.Lib.NodeHeads.scatterAdd_heads_apply _ rfl rfl rfl rfl, into_v56 x3 n, val_main_v55_apply,
    val_main_cst_11_apply]
  refine congrArg (_ + ·) (Finset.sum_congr rfl fun e _ => ?_)
  exact weight_at x0 x1 x2 x3 x4 x5 x6 x7 x10 x11 hsrc hdst e h

/-- The first result at (n, h, d). -/
theorem hOut_at (hsrc : ∀ e : Fin 800000, 0 ≤ (x2 (ix1 e)).toInt) (hdst : ∀ e : Fin 800000, 0 ≤ (x3 (ix1 e)).toInt)
    (n : Fin 50000) (h : Fin 8) (d : Fin 16) :
    val_main_v61 (F := Ideal) x0 x1 x2 x3 x4 x5 x6 x7 x8 x9 x10 x11 (ix3 n h d)
      = hOutAt x0 x1 x2 x3 x4 x5 x6 x7 x8 x9 x10 x11 n h d := by
  have e60 : idx_main_v60 (ix3 n h d) = ix3 n h (0 : Fin 1) := by
    funext a; match a with
    | ⟨0, _⟩ => rfl
    | ⟨1, _⟩ => rfl
    | ⟨2, _⟩ => rfl
  rw [val_main_v61_apply, val_main_v60_apply, e60, val_main_v59_apply, val_main_v58_apply, val_main_cst_12_apply,
    numerator_at x0 x1 x2 x3 x4 x5 x6 x7 x8 x9 x10 x11 hsrc hdst n h d,
    denominator_at x0 x1 x2 x3 x4 x5 x6 x7 x10 x11 hsrc hdst n h]
  rfl

/-! ## The two results as arrays -/

/-- THE REFERENCE'S FIRST RESULT is the specification's. -/
theorem ref_hOut (hsrc : ∀ e : Fin 800000, 0 ≤ (x2 (ix1 e)).toInt) (hdst : ∀ e : Fin 800000, 0 ≤ (x3 (ix1 e)).toInt) :
    val_main_v61 (F := Ideal) x0 x1 x2 x3 x4 x5 x6 x7 x8 x9 x10 x11 = hOut x0 x1 x2 x3 x4 x5 x6 x7 x8 x9 x10 x11 := by
  funext i
  rw [eq_ix3 i]
  exact hOut_at x0 x1 x2 x3 x4 x5 x6 x7 x8 x9 x10 x11 hsrc hdst (i 0) (i 1) (i 2)

/-- THE REFERENCE'S SECOND RESULT is the specification's. -/
theorem ref_eOut (hsrc : ∀ e : Fin 800000, 0 ≤ (x2 (ix1 e)).toInt) (hdst : ∀ e : Fin 800000, 0 ≤ (x3 (ix1 e)).toInt) :
    val_main_v38 (F := Ideal) x0 x1 x2 x3 x4 x5 x6 x7 x10 x11 = eOut x0 x1 x2 x3 x4 x5 x6 x7 x10 x11 := by
  funext i
  rw [eq_ix3 i]
  exact score_at x0 x1 x2 x3 x4 x5 x6 x7 x10 x11 hsrc hdst (i 0) (i 1) (i 2)

end

end Cert.ReferenceIdeal.RefValue

end
-- ==== Proof.RefRun.lean ====
/-
  THE REFERENCE'S RUN, ITS RESULTS NAMED BY THE SPECIFICATION, AND ITS FRAME.

  Every weakly fair execution of the reference program terminates without a fault; its two result arrays are then the
  composed term of its operations over the argument arrays, and the argument arrays are as they were. When every source
  and destination index in memory is nonnegative, those two terms are the specification's two arrays of the argument
  arrays. Dropping the two results from the same run leaves the frame: the program runs and its arguments end unchanged.
-/
import proofs.«155304_j53326313947334_2_alg».proof.Defs
import proofs.«155304_j53326313947334_2_alg».proof.Proof.Gen.ReferenceIdeal.Run
import proofs.«155304_j53326313947334_2_alg».proof.Proof.Gen.ReferenceIdeal.Read
import proofs.«155304_j53326313947334_2_alg».proof.Proof.Gen.Pre_finite_inputs
import proofs.«155304_j53326313947334_2_alg».proof.Proof.RefValue

noncomputable section

namespace Cert.ReferenceIdeal.RefRun

open Idealize.ShloMosaic Idealize.SL.Sem Idealize.ShloMosaic.ValueIdx

/-- From a memory whose source and destination indices are nonnegative, the reference program runs to the end, its
    first result the specification's node array, its second the specification's edge array, its arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hsrc : ∀ (c : Dev Cert.ReferenceIdeal.nD) (e : Fin 800000), 0 ≤ ((m' ((c.tc : Thread Cert.ReferenceIdeal.nD Cert.ReferenceIdeal.τ).loc Cert.ReferenceIdeal.main_arg2)) (ix1 e)).toInt)
    (hdst : ∀ (c : Dev Cert.ReferenceIdeal.nD) (e : Fin 800000), 0 ≤ ((m' ((c.tc : Thread Cert.ReferenceIdeal.nD Cert.ReferenceIdeal.τ).loc Cert.ReferenceIdeal.main_arg3)) (ix1 e)).toInt) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v61)
        = Cert.EdgeSpec.hOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v38)
        = Cert.EdgeSpec.eOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) := by
  refine (θ_run Cert.ReferenceIdeal.defs _ _).mono (fun r h c => ?_) (Cert.ReferenceIdeal.Value.run (F := Ideal) m' ρ')
  obtain ⟨h61, h38, hargs⟩ := h c
  refine ⟨?_, ?_, hargs⟩
  · exact h61.trans ((Cert.ReferenceIdeal.Read.val_main_v61_eq m' c).trans
      (Cert.ReferenceIdeal.RefValue.ref_hOut _ _ _ _ _ _ _ _ _ _ _ _ (hsrc c) (hdst c)))
  · exact h38.trans ((Cert.ReferenceIdeal.Read.val_main_v38_eq _ _ _ _ _ _ _ _ _ _).trans
      (Cert.ReferenceIdeal.RefValue.ref_eOut _ _ _ _ _ _ _ _ _ _ (hsrc c) (hdst c)))

/-- The reference program runs and its argument arrays end unchanged: its run with the two results dropped. -/
theorem frame_ref : Cert.frame_ReferenceIdeal :=
  fun m ρ _ => (θ_run Cert.ReferenceIdeal.defs _ _).mono (fun _ h c => (h c).2.2)
    (Cert.ReferenceIdeal.Value.run (F := Ideal) m ρ)

end Cert.ReferenceIdeal.RefRun

end
-- ==== Proof.PreIndex.lean ====
/-
  FROM THE PRECONDITION TO THE TWO INDEX FACTS.

  The precondition is one conjunction: for each of the ten float arrays "every entry has absolute value below +inf",
  and, last, "every source index is at least 0" and "every destination index is at least 0", each conjunct an
  all-quantifier over an array folded by "and" from the constant true. If the conjunction is true then each conjunct
  is, and a fold by "and" that is true met only true entries; the entry of the comparison "index >= 0 (signed)" at edge
  e being true says that the index of e, read as a signed integer, is nonnegative. Nothing here depends on which
  arithmetic the floats are read at.
-/
import Idealize.ShloMosaic.Lib.ReduceAll
import Idealize.ShloMosaic.Lib.ValueIdx
import proofs.«155304_j53326313947334_2_alg».proof.Pre_finite_inputs

namespace Cert.PreIndex

open Idealize.ShloMosaic Idealize.ShloMosaic.ValueIdx Cert.Pre_finite_inputs

/-- The scalar shape has one index. -/
instance : Subsingleton (⟨0, ![]⟩ : Shape).Idx := ⟨fun a b => funext fun d => d.elim0⟩

/-- An entry of "index >= 0 (signed)" that is true: the index, read signed, is nonnegative. -/
theorem nonneg_of_sge {S : Shape} (x z : IVec S 32) (i : S.Idx) (hz : z i = 0#32) (h : cmpi .sge x z i = 1#1) :
    0 ≤ (x i).toInt := by
  have h' : IntOp.cmpi .sge (x i) (z i) = 1#1 := h
  rw [hz] at h'
  have := IntOp.cmpi_sge.1 h'
  rwa [show (0#32 : BitVec 32).toInt = 0 from by decide] at this

/-- If the precondition holds of the twelve argument arrays then every source index and every destination index, read
    signed, is nonnegative. -/
theorem indices_nonneg {F : FTy → Type} [FloatOps F] [Facts]
    (x0 : FVec F S50000x128 .f32) (x1 : FVec F S800000x128 .f32) (x2 x3 : IVec S800000 32)
    (x4 : FVec F S128x128 .f32) (x5 : FVec F S128 .f32) (x6 : FVec F S128x128 .f32) (x7 : FVec F S128 .f32)
    (x8 : FVec F S128x128 .f32) (x9 : FVec F S128 .f32) (x10 : FVec F S128x128 .f32) (x11 : FVec F S128 .f32)
    (h : fn (F := F) x0 x1 x2 x3 x4 x5 x6 x7 x8 x9 x10 x11 = fun _ => 1#1) :
    (∀ e : Fin 800000, 0 ≤ (x2 (ix1 e)).toInt) ∧ (∀ e : Fin 800000, 0 ≤ (x3 (ix1 e)).toInt) := by
  have h0 := congrFun h ix0
  dsimp only [fn, fn_part1, fn_part2, fn_part3] at h0
  obtain ⟨h1, hdst⟩ := IntOp.andi_eq_one.1 h0
  obtain ⟨-, hsrc⟩ := IntOp.andi_eq_one.1 h1
  refine ⟨fun e => ?_, fun e => ?_⟩
  · exact nonneg_of_sge _ _ (ix1 e) rfl (Host.reduce_andi_all _ _ _ _ _ hsrc (ix1 e))
  · exact nonneg_of_sge _ _ (ix1 e) rfl (Host.reduce_andi_all _ _ _ _ _ hdst (ix1 e))

/-- Every source index, read signed, is nonnegative. -/
theorem src_nonneg {F : FTy → Type} [FloatOps F] [Facts]
    (x0 : FVec F S50000x128 .f32) (x1 : FVec F S800000x128 .f32) (x2 x3 : IVec S800000 32)
    (x4 : FVec F S128x128 .f32) (x5 : FVec F S128 .f32) (x6 : FVec F S128x128 .f32) (x7 : FVec F S128 .f32)
    (x8 : FVec F S128x128 .f32) (x9 : FVec F S128 .f32) (x10 : FVec F S128x128 .f32) (x11 : FVec F S128 .f32)
    (h : fn (F := F) x0 x1 x2 x3 x4 x5 x6 x7 x8 x9 x10 x11 = fun _ => 1#1) (e : Fin 800000) :
    0 ≤ (x2 (ix1 e)).toInt :=
  (indices_nonneg x0 x1 x2 x3 x4 x5 x6 x7 x8 x9 x10 x11 h).1 e

/-- Every destination index, read signed, is nonnegative. -/
theorem dst_nonneg {F : FTy → Type} [FloatOps F] [Facts]
    (x0 : FVec F S50000x128 .f32) (x1 : FVec F S800000x128 .f32) (x2 x3 : IVec S800000 32)
    (x4 : FVec F S128x128 .f32) (x5 : FVec F S128 .f32) (x6 : FVec F S128x128 .f32) (x7 : FVec F S128 .f32)
    (x8 : FVec F S128x128 .f32) (x9 : FVec F S128 .f32) (x10 : FVec F S128x128 .f32) (x11 : FVec F S128 .f32)
    (h : fn (F := F) x0 x1 x2 x3 x4 x5 x6 x7 x8 x9 x10 x11 = fun _ => 1#1) (e : Fin 800000) :
    0 ≤ (x3 (ix1 e)).toInt :=
  (indices_nonneg x0 x1 x2 x3 x4 x5 x6 x7 x8 x9 x10 x11 h).2 e

end Cert.PreIndex
-- ==== Proof.lean ====
/-
  The certificate of an edge-attention graph layer: a kernel that streams the 800000 edges through 125 tiles of 6400,
  with gathers before it and scatter-adds after it done by host operations, against a plain reference.

  On the extended reals both programs compute, for every edge e, head h and coordinate d,
    e_out e h d = clamp (K[s e] · Q[t e] · ¼) · P[e]            at lane 16h + d,
  and for every node n
    h_out n h d = (Σ_{e into n} V[s e, 16h + d] · w e h) / (Σ_{e into n} w e h + ε),   w e h = exp (clamp (Σ_d score e (16h + d))).
  They differ in arrangement only: the kernel forms Q, K and V by one product with the three matrices side by side, keeps
  them in a narrower float format (the identity here), sums a head's 16 lanes by a product with a 0/1 matrix (x · 0 = 0
  and x · 1 = x on every extended real, so no finiteness is used), and scatter-adds [50000, 128] and [50000, 8] arrays
  where the reference scatter-adds [50000, 8, 16] and [50000, 8, 1]. The one difference in value is at a NEGATIVE index:
  the reference's x[i] first adds 50000 to it, the kernel's clamping gather reads row 0; the precondition asks the
  indices to be nonnegative, and above the range both gathers clamp alike.

  The three frames: the two kernel programs by the launch theorem for a region followed by host operations, over the
  body's triple; the reference by its run. The kernel's idealization rewrote nothing.
-/
import proofs.«155304_j53326313947334_2_alg».proof.Defs
import proofs.«155304_j53326313947334_2_alg».proof.Proof.Gen.Kernel
import proofs.«155304_j53326313947334_2_alg».proof.Proof.Gen.KernelIdeal
import proofs.«155304_j53326313947334_2_alg».proof.Proof.Gen.ReferenceIdeal
import proofs.«155304_j53326313947334_2_alg».proof.Proof.Gen.Pre_finite_inputs
import proofs.«155304_j53326313947334_2_alg».proof.Proof.KEdgeRun
import proofs.«155304_j53326313947334_2_alg».proof.Proof.EdgeTail
import proofs.«155304_j53326313947334_2_alg».proof.Proof.RefRun
import proofs.«155304_j53326313947334_2_alg».proof.Proof.PreIndex
import Idealize.ShloMosaic.Adequacy
import Idealize.ShloMosaic.Init

noncomputable section

namespace Cert.Proof

open Idealize.ShloMosaic Idealize.ShloMosaic.ValueIdx Idealize.SL.Sem

/-- The kernel as printed runs to the end, faults nowhere and leaves its arguments unchanged. -/
theorem frame_kernel : Cert.frame_Kernel := fun m ρ _ => Cert.Kernel.Edge.frame m ρ

/-- So does its idealization. -/
theorem frame_kernelIdeal : Cert.frame_KernelIdeal := fun m ρ _ => Cert.KernelIdeal.Edge.frame m ρ

/-- On the extended reals, from memories that agree on the arguments and hold nonnegative indices, the kernel and the
    reference both run to the end with the specification's two results. -/
theorem algebraic : Cert.algebraic_KernelIdeal_ReferenceIdeal := by
  intro m ρ m' ρ' hpre hagree
  refine ⟨fun c => Cert.EdgeSpec.hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), fun c => Cert.EdgeSpec.eOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.EdgeValue.kernel_run m ρ, ?_⟩
  have hsrc : ∀ (c : Dev Cert.ReferenceIdeal.nD) (e : Fin 800000),
      0 ≤ ((m' ((c.tc : Thread Cert.ReferenceIdeal.nD Cert.ReferenceIdeal.τ).loc Cert.ReferenceIdeal.main_arg2)) (ix1 e)).toInt := by
    intro c e
    rw [(hagree c).2.2.1]
    exact Cert.PreIndex.src_nonneg _ _ _ _ _ _ _ _ _ _ _ _ (hpre c) e
  have hdst : ∀ (c : Dev Cert.ReferenceIdeal.nD) (e : Fin 800000),
      0 ≤ ((m' ((c.tc : Thread Cert.ReferenceIdeal.nD Cert.ReferenceIdeal.τ).loc Cert.ReferenceIdeal.main_arg3)) (ix1 e)).toInt := by
    intro c e
    rw [(hagree c).2.2.2.1]
    exact Cert.PreIndex.dst_nonneg _ _ _ _ _ _ _ _ _ _ _ _ (hpre c) e
  refine (θ_run Cert.ReferenceIdeal.defs _ _).mono (fun r h c => ?_) (Cert.ReferenceIdeal.RefRun.ref_run m' ρ' hsrc hdst)
  obtain ⟨hh, he, hargs⟩ := h c
  obtain ⟨a0, a1, a2, a3, a4, a5, a6, a7, a8, a9, a10, a11⟩ := hagree c
  refine ⟨hh.trans ?_, he.trans ?_, hargs⟩
  · rw [a0, a1, a2, a3, a4, a5, a6, a7, a8, a9, a10, a11]
  · rw [a0, a1, a2, a3, a4, a5, a6, a7, a10, a11]

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefRun.frame_ref, trivial, algebraic⟩

end Cert.Proof

end
